-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S1000x128 : Shape := ⟨2, ![1000, 128]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S1024x64 .f32) (main_arg1 : FVec F S1000x128 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S1024x64 : Shape := ⟨2, ![1024, 64]⟩
abbrev S1000x128 : Shape := ⟨2, ![1000, 128]⟩
abbrev S1024x1000 : Shape := ⟨2, ![1024, 1000]⟩
abbrev S512x64 : Shape := ⟨2, ![512, 64]⟩
abbrev S512x1000 : Shape := ⟨2, ![512, 1000]⟩
abbrev S64x1000 : Shape := ⟨2, ![64, 1000]⟩
abbrev S1x1000 : Shape := ⟨2, ![1, 1000]⟩
abbrev S1000x64 : Shape := ⟨2, ![1000, 64]⟩
abbrev S1000x192 : Shape := ⟨2, ![1000, 192]⟩
abbrev S192x1000 : Shape := ⟨2, ![192, 1000]⟩
abbrev S1000 : Shape := ⟨1, ![1000]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S1024x64, .f32⟩
  | .hbm, ⟨1, _⟩ => ⟨S1000x128, .f32⟩
  | .hbm, ⟨2, _⟩ => ⟨S1024x1000, .f32⟩
  | .local _ .vmem, ⟨0, _⟩ => ⟨S512x64, .f32⟩
  | .local _ .vmem, ⟨1, _⟩ => ⟨S512x64, .f32⟩
  | .local _ .vmem, ⟨2, _⟩ => ⟨S1000x128, .f32⟩
  | .local _ .vmem, ⟨3, _⟩ => ⟨S512x1000, .f32⟩
  | .local _ .vmem, ⟨4, _⟩ => ⟨S512x1000, .f32⟩
  | .local _ .vmem, ⟨5, _⟩ => ⟨S64x1000, .bf16⟩
  | .local _ .vmem, ⟨6, _⟩ => ⟨S64x1000, .bf16⟩
  | .local _ .vmem, ⟨7, _⟩ => ⟨S1x1000, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1000x128_S1000x128_0_0 : ∀ a, (![0, 0] : Fin 2 → Nat) a + S1000x128.size a ≤ S1000x128.size a
  h_S1000x128 : 0 < S1000x128.numel
  slices_S1000x128_o0_0_S1000x64 : S1000x128.Slices ![0, 0] S1000x64
  slices_S1000x128_o0_64_S1000x64 : S1000x128.Slices ![0, 64] S1000x64
  concatenates_S1000x64_S1000x64_S1000x64_S1000x192_d1 : Shape.Concatenates [S1000x64, S1000x64, S1000x64] S1000x192 1
  transposes_S1000x192_p1_0_S192x1000 : S1000x192.Transposes [1, 0] S192x1000
  slices_S192x1000_o0_0_S64x1000 : S192x1000.Slices ![0, 0] S64x1000
  bitsLt_bf16_f32 : FTy.bits .bf16 < FTy.bits .f32
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  packedbf16_S64x1000_S64x1000_0_0 : (Rect.unit (s := S64x1000) ![0, 0] S64x1000.size inb_S64x1000_S64x1000_0_0).PackedRows (EltTy.packing .bf16)
  slices_S192x1000_o64_0_S64x1000 : S192x1000.Slices ![64, 0] S64x1000
  slices_S192x1000_o128_0_S64x1000 : S192x1000.Slices ![128, 0] S64x1000
  reduces_S64x1000_S1000 : S64x1000.Reduces [0] S1000
  shapeCasts_S1000_S1x1000 : S1000.ShapeCasts S1x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  broadcasts_S512x1_S512x1000 : S512x1.Broadcasts S512x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  dot_S512x64_S64x1000_S512x1000_1_0_0_1_n_n_wf : DotDims.WF S512x64 S64x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S1024x64.size a
  hwx0_0 : ∀ i : grid0.Coords, EltTy.bits .f32 = 32 ∨ (Rect.block (s := S1024x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .f32 = 32 ∨ (Rect.block (s := S1000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1000.size a ≤ S1024x1000.size a
  hwx0_2 : ∀ i : grid0.Coords, EltTy.bits .f32 = 32 ∨ (Rect.block (s := S1024x1000) S512x1000.size (cc0_transform_2 i) (hinb0_2 i)).WholeWords (EltTy.packing .f32)

variable [Facts₀]

def dot_S512x64_S64x1000_S512x1000_1_0_0_1_n_n : DotDims S512x64 S64x1000 S512x1000 where
  lhsContracting := [1]
  rhsContracting := [0]
  lhsNonContracting := [0]
  rhsNonContracting := [1]
  lhsBatch := []
  rhsBatch := []
  wf := dot_S512x64_S64x1000_S512x1000_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64 : Shape := ⟨2, ![1024, 64]⟩
abbrev S1000x128 : Shape := ⟨2, ![1000, 128]⟩
abbrev S1000 : Shape := ⟨1, ![1000]⟩
abbrev S1x1000 : Shape := ⟨2, ![1, 1000]⟩
abbrev S1024x1000 : Shape := ⟨2, ![1024, 1000]⟩
abbrev S1024000 : Shape := ⟨1, ![1024000]⟩
abbrev S1024x1x64 : Shape := ⟨3, ![1024, 1, 64]⟩
abbrev S1024x1x1000x64 : Shape := ⟨4, ![1024, 1, 1000, 64]⟩
abbrev S1024x1000x64 : Shape := ⟨3, ![1024, 1000, 64]⟩
abbrev S1024000x64 : Shape := ⟨2, ![1024000, 64]⟩
abbrev S_ : Shape := ⟨0, ![]⟩
abbrev S1024000x1 : Shape := ⟨2, ![1024000, 1]⟩
abbrev S1 : Shape := ⟨1, ![1]⟩
abbrev S1x1 : Shape := ⟨2, ![1, 1]⟩
abbrev S1024000x128 : Shape := ⟨2, ![1024000, 128]⟩

abbrev nBuf : Space → Nat
  | .hbm => 55
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1000x128, .f32⟩
  | .hbm, ⟨2, _⟩ => ⟨S1000, .i32⟩
  | .hbm, ⟨3, _⟩ => ⟨S1x1000, .i32⟩
  | .hbm, ⟨4, _⟩ => ⟨S1024x1000, .i32⟩
  | .hbm, ⟨5, _⟩ => ⟨S1024000, .i32⟩
  | .hbm, ⟨6, _⟩ => ⟨S1024x1x64, .f32⟩
  | .hbm, ⟨7, _⟩ => ⟨S1024x1x1000x64, .f32⟩
  | .hbm, ⟨8, _⟩ => ⟨S1024x1000x64, .f32⟩
  | .hbm, ⟨9, _⟩ => ⟨S1024000x64, .f32⟩
  | .hbm, ⟨10, _⟩ => ⟨S_, .i32⟩
  | .hbm, ⟨11, _⟩ => ⟨S1024000, .i32⟩
  | .hbm, ⟨12, _⟩ => ⟨S1024000, .i1⟩
  | .hbm, ⟨13, _⟩ => ⟨S_, .i32⟩
  | .hbm, ⟨14, _⟩ => ⟨S1024000, .i32⟩
  | .hbm, ⟨15, _⟩ => ⟨S1024000, .i32⟩
  | .hbm, ⟨16, _⟩ => ⟨S1024000, .i32⟩
  | .hbm, ⟨17, _⟩ => ⟨S1024000x1, .i32⟩
  | .hbm, ⟨18, _⟩ => ⟨S1, .i32⟩
  | .hbm, ⟨19, _⟩ => ⟨S_, .i32⟩
  | .hbm, ⟨20, _⟩ => ⟨S1024000x1, .i32⟩
  | .hbm, ⟨21, _⟩ => ⟨S1024000x1, .i1⟩
  | .hbm, ⟨22, _⟩ => ⟨S1x1, .i32⟩
  | .hbm, ⟨23, _⟩ => ⟨S1024000x1, .i32⟩
  | .hbm, ⟨24, _⟩ => ⟨S1024000x1, .i1⟩
  | .hbm, ⟨25, _⟩ => ⟨S1024000x1, .i1⟩
  | .hbm, ⟨26, _⟩ => ⟨S_, .i1⟩
  | .hbm, ⟨27, _⟩ => ⟨S1024000, .i1⟩
  | .hbm, ⟨28, _⟩ => ⟨S1024000x128, .f32⟩
  | .hbm, ⟨29, _⟩ => ⟨S1024000x128, .i1⟩
  | .hbm, ⟨30, _⟩ => ⟨S_, .f32⟩
  | .hbm, ⟨31, _⟩ => ⟨S1024000x128, .f32⟩
  | .hbm, ⟨32, _⟩ => ⟨S1024000x128, .f32⟩
  | .hbm, ⟨33, _⟩ => ⟨S1024000x64, .f32⟩
  | .hbm, ⟨34, _⟩ => ⟨S1024000x64, .f32⟩
  | .hbm, ⟨35, _⟩ => ⟨S_, .f32⟩
  | .hbm, ⟨36, _⟩ => ⟨S1024000x64, .f32⟩
  | .hbm, ⟨37, _⟩ => ⟨S1024000x64, .f32⟩
  | .hbm, ⟨38, _⟩ => ⟨S_, .f32⟩
  | .hbm, ⟨39, _⟩ => ⟨S1024000x64, .f32⟩
  | .hbm, ⟨40, _⟩ => ⟨S1024000x64, .f32⟩
  | .hbm, ⟨41, _⟩ => ⟨S1024000x64, .f32⟩
  | .hbm, ⟨42, _⟩ => ⟨S1024000x64, .f32⟩
  | .hbm, ⟨43, _⟩ => ⟨S_, .f32⟩
  | .hbm, ⟨44, _⟩ => ⟨S1024000x64, .f32⟩
  | .hbm, ⟨45, _⟩ => ⟨S1024000x64, .f32⟩
  | .hbm, ⟨46, _⟩ => ⟨S1024000x64, .f32⟩
  | .hbm, ⟨47, _⟩ => ⟨S1024000x64, .f32⟩
  | .hbm, ⟨48, _⟩ => ⟨S1024000x64, .f32⟩
  | .hbm, ⟨49, _⟩ => ⟨S_, .f32⟩
  | .hbm, ⟨50, _⟩ => ⟨S1024000x64, .f32⟩
  | .hbm, ⟨51, _⟩ => ⟨S1024000x64, .f32⟩
  | .hbm, ⟨52, _⟩ => ⟨S_, .f32⟩
  | .hbm, ⟨53, _⟩ => ⟨S1024000, .f32⟩
  | .hbm, ⟨54, _⟩ => ⟨S1024x1000, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_cst_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_2 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩

abbrev nD : Nat := 1
abbrev τ : Topo := Topo.v7x

variable {F : FTy → Type} [FloatOps F]

class Facts₀ : Prop where
  shapeCasts_S1000_S1x1000 : S1000.ShapeCasts S1x1000
  bcast_S1x1000_S1024x1000_0_1 : S1x1000.BroadcastsInDim S1024x1000 (![0, 1] : Fin 2 → Fin S1024x1000.rank)
  shapeCasts_S1024x1000_S1024000 : S1024x1000.ShapeCasts S1024000
  bcast_S1024x64_S1024x1x64_0_2 : S1024x64.BroadcastsInDim S1024x1x64 (![0, 2] : Fin 2 → Fin S1024x1x64.rank)
  bcast_S1024x1x64_S1024x1x1000x64_0_1_3 : S1024x1x64.BroadcastsInDim S1024x1x1000x64 (![0, 1, 3] : Fin 3 → Fin S1024x1x1000x64.rank)
  shapeCasts_S1024x1x1000x64_S1024x1000x64 : S1024x1x1000x64.ShapeCasts S1024x1000x64
  shapeCasts_S1024x1000x64_S1024000x64 : S1024x1000x64.ShapeCasts S1024000x64
  bcast_S_S1024000 : S_.BroadcastsInDim S1024000 (![] : Fin 0 → Fin S1024000.rank)
  bcast_S1024000_S1024000x1_0 : S1024000.BroadcastsInDim S1024000x1 (![0] : Fin 1 → Fin S1024000x1.rank)
  bcast_S_S1024000x1 : S_.BroadcastsInDim S1024000x1 (![] : Fin 0 → Fin S1024000x1.rank)
  bcast_S1_S1x1_1 : S1.BroadcastsInDim S1x1 (![1] : Fin 1 → Fin S1x1.rank)
  bcast_S1x1_S1024000x1_0_1 : S1x1.BroadcastsInDim S1024000x1 (![0, 1] : Fin 2 → Fin S1024000x1.rank)
  reducesTo_S1024000x1_S1024000_d1 : S1024000x1.ReducesTo [1] S1024000
  h_S_ : 0 < S_.numel
  bcast_S1024000_S1024000x128_0 : S1024000.BroadcastsInDim S1024000x128 (![0] : Fin 1 → Fin S1024000x128.rank)
  bcast_S_S1024000x128 : S_.BroadcastsInDim S1024000x128 (![] : Fin 0 → Fin S1024000x128.rank)
  slices_S1024000x128_S1024000x64_0_0 : S1024000x128.Slices ![0, 0] S1024000x64
  slices_S1024000x128_S1024000x64_0_64 : S1024000x128.Slices ![0, 64] S1024000x64
  bcast_S_S1024000x64 : S_.BroadcastsInDim S1024000x64 (![] : Fin 0 → Fin S1024000x64.rank)
  reducesTo_S1024000x64_S1024000_d1 : S1024000x64.ReducesTo [1] S1024000
  shapeCasts_S1024000_S1024x1000 : S1024000.ShapeCasts S1024x1000
  gather_S1000x128_S1024000x1_S1024000x128_1_0_n_n_0_1_1128_wf : GatherDims.WF S1000x128 S1024000x1 S1024000x128 [1] [0] [] [0] [] 1 ![1, 128]

variable [Facts₀]

def gather_S1000x128_S1024000x1_S1024000x128_1_0_n_n_0_1_1128 : GatherDims S1000x128 S1024000x1 S1024000x128 where
  offsetDims := [1]
  collapsedSliceDims := [0]
  operandBatchingDims := []
  startIndicesBatchingDims := []
  startIndexMap := [0]
  indexVectorDim := 1
  sliceSizes := ![1, 128]
  wf := gather_S1000x128_S1024000x1_S1024000x128_1_0_n_n_0_1_1128_wf

class Facts : Prop extends Facts₀ where

variable [Facts]
-- ==== Proof.Spec.lean ====
/-
  The class-conditional Gaussian log-likelihood, stated once as two functions of the two argument arrays
  x : [1024, 64] (the batch) and ce : [1000, 128] (per class: columns 0..63 the means m, columns 64..127 the
  log standard deviations ls), entry by entry over the extended reals.

  llRef is the textbook form, one term per feature d:
      ll[b, c] = 0 + ∑_d  (-1/2) · ( (L + 2·ls[c,d]) + (x[b,d] − m[c,d])² · exp(−2·ls[c,d]) ),      L the word of log 2π.
  llKer is the expanded square, two contractions over d plus a per-row and a per-class term:
      ll[b, c] = ( ∑_d x² · (−1/2)(e − 1)  +  ∑_d x · (m·e) )  +  (−1/2)·∑_d x²  +  (−1/2)·( K + ∑_d (2·ls + m·(m·e)) ),
  with e = exp(−2·ls[c,d]) and K the word of 64 · log 2π.
  The float words are kept as Ideal.ofBits of their patterns; K = 64 · L exactly (same mantissa, exponent + 6).
-/
import Idealize.ShloMosaic.PureOps.Ideal
import Idealize.ShloMosaic.Lib.ValueIdx

noncomputable section

open scoped BigOperators

namespace Cert.GaussLL

open Idealize.ShloMosaic Idealize.ShloMosaic.ValueIdx

/-- The batch array's shape, the class table's, and the result's. -/
abbrev SX : Shape := ⟨2, ![1024, 64]⟩
abbrev SE : Shape := ⟨2, ![1000, 128]⟩
abbrev SO : Shape := ⟨2, ![1024, 1000]⟩

/-- Feature d's column among the means (the low half of a class row) … -/
abbrev lo (d : Fin 64) : Fin 128 := ⟨d.val, by omega⟩
/-- … and among the log standard deviations (the high half). -/
abbrev hi (d : Fin 64) : Fin 128 := ⟨64 + d.val, by omega⟩

/-- The words the two programs spell: log 2π rounded to f32 (the reference), 64 · log 2π rounded to f32 (the
    kernel), 2, −2, −1/2, 1, 0. -/
abbrev cL : EReal := Ideal.ofBits .f32 0x3FEB3F8E#32
abbrev cK : EReal := Ideal.ofBits .f32 0x42EB3F8E#32
abbrev cTwo : EReal := Ideal.ofBits .f32 0x40000000#32
abbrev cNegTwo : EReal := Ideal.ofBits .f32 0xC0000000#32
abbrev cNegHalf : EReal := Ideal.ofBits .f32 0xBF000000#32
abbrev cOne : EReal := Ideal.ofBits .f32 0x3F800000#32
abbrev cZero : EReal := Ideal.ofBits .f32 0x00000000#32

/-- Class c's mean, log standard deviation and inverse variance exp(−2·ls) at feature d. -/
def mean (ce : SE.Idx → EReal) (c : Fin 1000) (d : Fin 64) : EReal := ce (ix2 c (lo d))
def lsig (ce : SE.Idx → EReal) (c : Fin 1000) (d : Fin 64) : EReal := ce (ix2 c (hi d))
def ivar (ce : SE.Idx → EReal) (c : Fin 1000) (d : Fin 64) : EReal := Ideal.exp (cNegTwo * lsig ce c d)

/-- The textbook form: the sum over the features of −1/2 times (the normalizer plus the scaled squared distance),
    from the zero the sum starts at. -/
def llRef (x : SX.Idx → EReal) (ce : SE.Idx → EReal) (b : Fin 1024) (c : Fin 1000) : EReal :=
  cZero + ∑ d : Fin 64, cNegHalf *
    ((cL + cTwo * lsig ce c d)
      + ((x (ix2 b d) - mean ce c d) * (x (ix2 b d) - mean ce c d)) * ivar ce c d)

/-- The expanded form: two contractions over the features, the row's squared norm, the class's constant. -/
def llKer (x : SX.Idx → EReal) (ce : SE.Idx → EReal) (b : Fin 1024) (c : Fin 1000) : EReal :=
  (((∑ d : Fin 64, (x (ix2 b d) * x (ix2 b d)) * (cNegHalf * (ivar ce c d - cOne)))
      + (∑ d : Fin 64, x (ix2 b d) * (mean ce c d * ivar ce c d)))
    + cNegHalf * (∑ d : Fin 64, x (ix2 b d) * x (ix2 b d)))
  + cNegHalf * (cK + ∑ d : Fin 64, (cTwo * lsig ce c d + mean ce c d * (mean ce c d * ivar ce c d)))

end Cert.GaussLL

end
-- ==== Proof.Algebra.lean ====
/-
  The algebra of the class-conditional Gaussian log-likelihood: the float words of the two forms as the reals
  they denote, and the identity of the expanded-square form llKer with the textbook form llRef on finite data.

  With e = exp(-2 ls), per feature d the textbook summand is
      (-1/2) ( (L + 2 ls) + (x - m)^2 e )
    = x^2 ( (-1/2)(e - 1) ) + x (m e) + (-1/2) x^2 + (-1/2) ( L + (2 ls + m (m e)) ),
  because (x - m)^2 e = x^2 e - 2 x m e + m^2 e and the two x^2 terms without e cancel. Summed over the 64
  features, the last bracket contributes 64 L = K plus the class's sum. All of this is distributivity, which
  holds in the reals and not at the infinities of the extended reals: the entries are first written as
  coercions of reals, the coercion is pushed outward through every product, sum, difference, exponential and
  finite sum, and the identity is then one between two real numbers.
-/
import proofs.«153992_g45595372814773_cont_8to1_c_604_14_alg».proof.Proof.Spec
import Mathlib.Tactic.Ring
import Mathlib.Tactic.NormNum
import Mathlib.Algebra.BigOperators.Ring.Finset

noncomputable section

open scoped BigOperators

namespace Cert.GaussLL

open Idealize.ShloMosaic Idealize.ShloMosaic.ValueIdx

/-! ### The float words as reals -/

/-- The real the word of log 2π denotes: significand 2^23 + 0x6B3F8E = 15417230 at exponent 127 - 127 - 23. -/
def L : ℝ := 15417230 / 8388608

theorem cTwo_eq : cTwo = ((2 : ℝ) : EReal) := by
  simp [Ideal.ofBits, Ideal.ieee, -EReal.coe_mul]; norm_num

theorem cNegTwo_eq : cNegTwo = ((-2 : ℝ) : EReal) := by
  simp [Ideal.ofBits, Ideal.ieee, -EReal.coe_mul]; norm_num

theorem cNegHalf_eq : cNegHalf = ((-1 / 2 : ℝ) : EReal) := by
  simp [Ideal.ofBits, Ideal.ieee, -EReal.coe_mul]; norm_num

theorem cOne_eq : cOne = 1 := by
  simp [Ideal.ofBits, Ideal.ieee, -EReal.coe_mul]; norm_num

theorem cZero_eq : cZero = 0 := by
  simp [Ideal.ofBits, Ideal.ieee]

theorem cOne_eq_coe : cOne = ((1 : ℝ) : EReal) := by rw [cOne_eq, EReal.coe_one]

theorem cZero_eq_coe : cZero = ((0 : ℝ) : EReal) := by rw [cZero_eq, EReal.coe_zero]

theorem cL_eq : cL = ((L : ℝ) : EReal) := by
  simp [Ideal.ofBits, Ideal.ieee, L, -EReal.coe_mul]; norm_num

/-- The kernel's word has the same significand six binades up: it denotes 64 L exactly. -/
theorem cK_eq : cK = ((64 * L : ℝ) : EReal) := by
  simp [Ideal.ofBits, Ideal.ieee, L, -EReal.coe_mul]; norm_num

/-! ### The coercion of the reals commutes with a finite sum -/

theorem coe_finset_sum {ι : Type} (s : Finset ι) (f : ι → ℝ) :
    ((∑ i ∈ s, f i : ℝ) : EReal) = ∑ i ∈ s, ((f i : ℝ) : EReal) := by
  classical
  refine Finset.induction_on s ?_ ?_
  · simp
  · intro a t ha ih
    rw [Finset.sum_insert ha, Finset.sum_insert ha, EReal.coe_add, ih]

/-! ### The two forms over the reals -/

/-- The textbook form over real data: x the row, m the class's means, s its log standard deviations. -/
def refR (x m s : Fin 64 → ℝ) : ℝ :=
  0 + ∑ d : Fin 64, (-1 / 2) *
    ((L + 2 * s d) + ((x d - m d) * (x d - m d)) * Real.exp (-2 * s d))

/-- The expanded form over real data. -/
def kerR (x m s : Fin 64 → ℝ) : ℝ :=
  (((∑ d : Fin 64, (x d * x d) * ((-1 / 2) * (Real.exp (-2 * s d) - 1)))
      + (∑ d : Fin 64, x d * (m d * Real.exp (-2 * s d))))
    + (-1 / 2) * (∑ d : Fin 64, x d * x d))
  + (-1 / 2) * (64 * L + ∑ d : Fin 64, (2 * s d + m d * (m d * Real.exp (-2 * s d))))

/-- Per feature: the expanded square, with the two x^2 terms that carry no e cancelling. -/
theorem summand_eq (x m s e : ℝ) :
    (x * x) * ((-1 / 2) * (e - 1)) + x * (m * e) + (-1 / 2) * (x * x)
        + (-1 / 2) * (L + (2 * s + m * (m * e)))
      = (-1 / 2) * ((L + 2 * s) + ((x - m) * (x - m)) * e) := by
  ring

/-- The identity over the reals: collect the four sums of the expanded form into one (64 L is the sum of L over
    the 64 features) and compare summands. -/
theorem kerR_eq_refR (x m s : Fin 64 → ℝ) : kerR x m s = refR x m s := by
  have hK : (64 * L : ℝ) = ∑ _d : Fin 64, L := by
    rw [Finset.sum_const, Finset.card_univ, Fintype.card_fin, nsmul_eq_mul]; norm_num
  unfold kerR refR
  rw [hK, zero_add]
  simp only [← Finset.sum_add_distrib, Finset.mul_sum]
  refine Finset.sum_congr rfl ?_
  intro d _
  exact summand_eq (x d) (m d) (s d) (Real.exp (-2 * s d))

/-! ### The two forms of the specification on real data are the coercions of the real forms -/

theorem llRef_coe (X : SX.Idx → ℝ) (E : SE.Idx → ℝ) (b : Fin 1024) (c : Fin 1000) :
    llRef (fun i => ((X i : ℝ) : EReal)) (fun i => ((E i : ℝ) : EReal)) b c
      = ((refR (fun d => X (ix2 b d)) (fun d => E (ix2 c (lo d))) (fun d => E (ix2 c (hi d))) : ℝ) : EReal) := by
  unfold llRef refR ivar mean lsig
  rw [cZero_eq_coe, cNegHalf_eq, cL_eq, cTwo_eq, cNegTwo_eq]
  simp only [← EReal.coe_mul, Ideal.exp_coe, ← EReal.coe_add, ← EReal.coe_sub, ← coe_finset_sum]

theorem llKer_coe (X : SX.Idx → ℝ) (E : SE.Idx → ℝ) (b : Fin 1024) (c : Fin 1000) :
    llKer (fun i => ((X i : ℝ) : EReal)) (fun i => ((E i : ℝ) : EReal)) b c
      = ((kerR (fun d => X (ix2 b d)) (fun d => E (ix2 c (lo d))) (fun d => E (ix2 c (hi d))) : ℝ) : EReal) := by
  unfold llKer kerR ivar mean lsig
  rw [cOne_eq_coe, cNegHalf_eq, cK_eq, cTwo_eq, cNegTwo_eq]
  simp only [← EReal.coe_mul, Ideal.exp_coe, ← EReal.coe_add, ← EReal.coe_sub, ← coe_finset_sum]

/-! ### The identity on finite data -/

/-- On arrays all of whose entries are real, the expanded form equals the textbook form. -/
theorem llKer_eq_llRef (x : SX.Idx → EReal) (ce : SE.Idx → EReal)
    (hx : ∀ i, ∃ r : ℝ, x i = (r : EReal)) (hce : ∀ i, ∃ r : ℝ, ce i = (r : EReal))
    (b : Fin 1024) (c : Fin 1000) : llKer x ce b c = llRef x ce b c := by
  choose X hX using hx
  choose E hE using hce
  have hx' : x = fun i => ((X i : ℝ) : EReal) := funext hX
  have hce' : ce = fun i => ((E i : ℝ) : EReal) := funext hE
  rw [hx', hce', llKer_coe, llRef_coe, kerR_eq_refR]

end Cert.GaussLL

end
-- ==== Proof.Finite.lean ====
/-
  The precondition read back. The predicate is the conjunction, over the two argument arrays, of "every entry
  has absolute value below plus infinity". Its value being 1 gives the comparison bit 1 at every entry of each
  array (an and-reduction over all axes that comes out 1 met only 1s); an extended real whose absolute value
  max a (-a) is below the top element is neither the top nor the bottom element, since both have absolute value
  the top element; and an extended real that is neither is the coercion of a real number.
-/
import proofs.«153992_g45595372814773_cont_8to1_c_604_14_alg».proof.Pre_finite_inputs
import proofs.«153992_g45595372814773_cont_8to1_c_604_14_alg».proof.Proof.Gen.Pre_finite_inputs
import Idealize.ShloMosaic.Lib.ReduceAll
import Idealize.ShloMosaic.Lib.ValueIdx
import Idealize.ShloMosaic.Lib.KernelVsHost

noncomputable section

namespace Cert.GaussLL

open Idealize.ShloMosaic Idealize.ShloMosaic.ValueIdx

/-- The scalar shape has one index. -/
instance subsingleton_scalar_idx : Subsingleton Cert.Pre_finite_inputs.S_.Idx :=
  ⟨fun _ _ => funext fun d => d.elim0⟩

/-- One entry: the comparison "absolute value below plus infinity" being 1 says the entry is a real number.
    The comparison is the complement of "the entry is the top or the bottom element". -/
theorem real_of_abs_lt_inf (a : Ideal .f32)
    (h : FloatOps.cmpf .olt (FloatOps.hostAbsf a) (FloatOps.ofBits (F := Ideal) .f32 0x7F800000#32) = 1#1) :
    ∃ r : ℝ, (a : EReal) = (r : EReal) := by
  rw [← Ideal.xori_weird_eq_hostAbsf_olt_inf] at h
  have h' : IntOp.xori (BitVec.ofBool (decide ((a : EReal) = ⊤ ∨ (a : EReal) = ⊥))) 1#1 = 1#1 := h
  by_cases hw : (a : EReal) = ⊤ ∨ (a : EReal) = ⊥
  · rw [decide_eq_true hw] at h'
    exact absurd h' (by decide)
  · have h1 : (a : EReal) ≠ ⊤ := fun e => hw (Or.inl e)
    have h2 : (a : EReal) ≠ ⊥ := fun e => hw (Or.inr e)
    exact ⟨EReal.toReal a, (EReal.coe_toReal h1 h2).symm⟩

/-- The precondition's value 1 says every entry of both arrays is a real number. -/
theorem real_of_pre (x : FVec Ideal Cert.Pre_finite_inputs.S1024x64 .f32)
    (ce : FVec Ideal Cert.Pre_finite_inputs.S1000x128 .f32)
    (h : Cert.Pre_finite_inputs.fn (F := Ideal) x ce = fun _ => 1#1) :
    (∀ i, ∃ r : ℝ, x i = (r : EReal)) ∧ (∀ i, ∃ r : ℝ, ce i = (r : EReal)) := by
  have h0 := congrFun h ix0
  dsimp only [Cert.Pre_finite_inputs.fn] at h0
  obtain ⟨h1, h2⟩ := IntOp.andi_eq_one.1 h0
  refine ⟨fun i => ?_, fun i => ?_⟩
  · have e := Host.reduce_andi_all _ _ _ _ ix0 h1 i
    exact real_of_abs_lt_inf (x i) e
  · have e := Host.reduce_andi_all _ _ _ _ ix0 h2 i
    exact real_of_abs_lt_inf (ce i) e

end Cert.GaussLL

end
-- ==== Proof.KernelPieces.lean ====
/-
  What each case of the kernel body leaves in its buffers, as values.

  At the grid's first point the body builds the three per-class tables from the class array (the two transposed
  contraction operands and the per-class constant row), stores them whole into the three scratch buffers, reads them
  back, and stores the output block computed from the batch block and those tables. At every later point the body
  stores nothing into the scratch buffers and computes the output block from the batch block and the tables the
  scratch buffers still hold. Every store and every load goes through a whole buffer, so each buffer ends at its
  one store's payload and each load reads the buffer's contents.
-/
import proofs.«153992_g45595372814773_cont_8to1_c_604_14_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access, as a constant function. -/
theorem hz : (![0, 0] : Fin 2 → Nat) = fun _ => 0 := funext fun a => by fin_cases a <;> rfl

/-- First point: the first scratch buffer ends at the first table of the class array. -/
theorem sout_A_0 (c : Dev nD) (i : grid0.Coords) (a1 : Memref sig .tc .vmem S512x64 .f32) (h1 : a1.IsWhole) (a2 : Memref sig .tc .vmem S1000x128 .f32) (h2 : a2.IsWhole) (a3 : Memref sig .tc .vmem S512x1000 .f32) (h3 : a3.IsWhole) (a4 : Memref sig .tc .vmem S64x1000 .bf16) (h4 : a4.IsWhole) (a5 : Memref sig .tc .vmem S64x1000 .bf16) (h5 : a5.IsWhole) (a6 : Memref sig .tc .vmem S1x1000 .f32) (h6 : a6.IsWhole) (hc : cond0_0 i) (x0 : Vec F S512x64 .f32) (x1 : Vec F S1000x128 .f32) :
    sout0_A_0 c i a1 h1 a2 h2 a3 h3 a4 h4 a5 h5 a6 h6 hc x0 x1 = k0_pay2 x1 := by
  unfold sout0_A_0
  rw [View.read_writes_eq_canon _ _ _ (scover0_A_0 c i a1 h1 a2 h2 a3 h3 a4 h4 a5 h5 a6 h6 hc x0 x1)]
  unfold kernelRun0_A
  dsimp only
  sl_unfold_words
  rw [View.canon_unit_zero hz]
  simp only [View.readAt_eq_ld, h2.read_unread, View.ld_unit_zero (S := S1000x128) hz]

/-- First point: the second scratch buffer ends at the second table. -/
theorem sout_A_1 (c : Dev nD) (i : grid0.Coords) (a1 : Memref sig .tc .vmem S512x64 .f32) (h1 : a1.IsWhole) (a2 : Memref sig .tc .vmem S1000x128 .f32) (h2 : a2.IsWhole) (a3 : Memref sig .tc .vmem S512x1000 .f32) (h3 : a3.IsWhole) (a4 : Memref sig .tc .vmem S64x1000 .bf16) (h4 : a4.IsWhole) (a5 : Memref sig .tc .vmem S64x1000 .bf16) (h5 : a5.IsWhole) (a6 : Memref sig .tc .vmem S1x1000 .f32) (h6 : a6.IsWhole) (hc : cond0_0 i) (x0 : Vec F S512x64 .f32) (x1 : Vec F S1000x128 .f32) :
    sout0_A_1 c i a1 h1 a2 h2 a3 h3 a4 h4 a5 h5 a6 h6 hc x0 x1 = k0_pay3 x1 := by
  unfold sout0_A_1
  rw [View.read_writes_eq_canon _ _ _ (scover0_A_1 c i a1 h1 a2 h2 a3 h3 a4 h4 a5 h5 a6 h6 hc x0 x1)]
  unfold kernelRun0_A
  dsimp only
  sl_unfold_words
  rw [View.canon_unit_zero hz]
  simp only [View.readAt_eq_ld, h2.read_unread, View.ld_unit_zero (S := S1000x128) hz]

/-- First point: the third scratch buffer ends at the per-class constant row. -/
theorem sout_A_2 (c : Dev nD) (i : grid0.Coords) (a1 : Memref sig .tc .vmem S512x64 .f32) (h1 : a1.IsWhole) (a2 : Memref sig .tc .vmem S1000x128 .f32) (h2 : a2.IsWhole) (a3 : Memref sig .tc .vmem S512x1000 .f32) (h3 : a3.IsWhole) (a4 : Memref sig .tc .vmem S64x1000 .bf16) (h4 : a4.IsWhole) (a5 : Memref sig .tc .vmem S64x1000 .bf16) (h5 : a5.IsWhole) (a6 : Memref sig .tc .vmem S1x1000 .f32) (h6 : a6.IsWhole) (hc : cond0_0 i) (x0 : Vec F S512x64 .f32) (x1 : Vec F S1000x128 .f32) :
    sout0_A_2 c i a1 h1 a2 h2 a3 h3 a4 h4 a5 h5 a6 h6 hc x0 x1 = k0_pay4 x1 := by
  unfold sout0_A_2
  rw [View.read_writes_eq_canon _ _ _ (scover0_A_2 c i a1 h1 a2 h2 a3 h3 a4 h4 a5 h5 a6 h6 hc x0 x1)]
  unfold kernelRun0_A
  dsimp only
  sl_unfold_words
  rw [View.canon_unit_zero hz]
  simp only [View.readAt_eq_ld, h2.read_unread, View.ld_unit_zero (S := S1000x128) hz]

/-- First point: the output block is the block function of the batch block and the three tables just built. -/
theorem out_A_2 (c : Dev nD) (i : grid0.Coords) (a1 : Memref sig .tc .vmem S512x64 .f32) (h1 : a1.IsWhole) (a2 : Memref sig .tc .vmem S1000x128 .f32) (h2 : a2.IsWhole) (a3 : Memref sig .tc .vmem S512x1000 .f32) (h3 : a3.IsWhole) (a4 : Memref sig .tc .vmem S64x1000 .bf16) (h4 : a4.IsWhole) (a5 : Memref sig .tc .vmem S64x1000 .bf16) (h5 : a5.IsWhole) (a6 : Memref sig .tc .vmem S1x1000 .f32) (h6 : a6.IsWhole) (hc : cond0_0 i) (x0 : Vec F S512x64 .f32) (x1 : Vec F S1000x128 .f32) :
    out0_A_2 c i a1 h1 a2 h2 a3 h3 a4 h4 a5 h5 a6 h6 hc x0 x1 = k0_pay5 x0 (k0_pay2 x1) (k0_pay3 x1) (k0_pay4 x1) := by
  unfold out0_A_2
  rw [View.read_writes_eq_canon _ _ _ (cover0_A_2 c i a1 h1 a2 h2 a3 h3 a4 h4 a5 h5 a6 h6 hc x0 x1)]
  unfold kernelRun0_A
  dsimp only
  sl_unfold_words
  rw [View.canon_unit_zero hz]
  simp only [View.readCov_unit_zero (S := S64x1000) _ hz, View.readCov_unit_zero (S := S1x1000) _ hz,
    View.readAt_eq_ld, h1.read_unread, h2.read_unread, View.ld_unit_zero (S := S512x64) hz,
    View.ld_unit_zero (S := S1000x128) hz]

/-- A later point: the output block is the block function of the batch block and the tables the scratch holds. -/
theorem out_B_2 (c : Dev nD) (i : grid0.Coords) (a1 : Memref sig .tc .vmem S512x64 .f32) (h1 : a1.IsWhole) (a2 : Memref sig .tc .vmem S1000x128 .f32) (h2 : a2.IsWhole) (a3 : Memref sig .tc .vmem S512x1000 .f32) (h3 : a3.IsWhole) (a4 : Memref sig .tc .vmem S64x1000 .bf16) (h4 : a4.IsWhole) (a5 : Memref sig .tc .vmem S64x1000 .bf16) (h5 : a5.IsWhole) (a6 : Memref sig .tc .vmem S1x1000 .f32) (h6 : a6.IsWhole) (hc : ¬cond0_0 i) (x0 : Vec F S512x64 .f32) (x1 : Vec F S1000x128 .f32)
    (xs0 xs1 : Vec F S64x1000 .bf16) (xs2 : Vec F S1x1000 .f32) :
    out0_B_2 c i a1 h1 a2 h2 a3 h3 a4 h4 a5 h5 a6 h6 hc x0 x1 xs0 xs1 xs2 = k0_pay5 x0 xs0 xs1 xs2 := by
  unfold out0_B_2
  rw [View.read_writes_eq_canon _ _ _ (cover0_B_2 c i a1 h1 a2 h2 a3 h3 a4 h4 a5 h5 a6 h6 hc x0 x1 xs0 xs1 xs2)]
  unfold kernelRun0_B
  dsimp only
  sl_unfold_words
  rw [View.canon_unit_zero hz]
  simp only [View.readAt_eq_ld, h1.read_unread, h4.read_unread, h5.read_unread, h6.read_unread,
    View.ld_unit_zero (S := S512x64) hz, View.ld_unit_zero (S := S64x1000) hz, View.ld_unit_zero (S := S1x1000) hz]

end Cert.KernelIdeal.Pieces

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibMinOps.lean ====
/-
  Minima of a matrix along one axis, and a matrix's sum down its rows, each read at an index written by its coordinates,
  on the extended reals.

  For an `[a, b]` matrix the minimum along the lanes at row `p` is the fold of `min`, from the accumulator's value, over
  `c : Fin b` of the entries `(p, c)`; the minimum down the rows at lane `q` is the fold over `r : Fin a` of the entries
  `(r, q)`; the sum down the rows at lane `q` is the sum over `r` of them. The host's minimum over the LAST axis of an
  `[n, a, b]` array reads, at `(k, p)`, the fold over `c : Fin b` of the entries `(k, p, c)`; over the MIDDLE axis, at
  `(k, c)`, the fold over `p : Fin a` of the same entries. The bit pattern of `+∞` is the greatest extended real, so a
  fold of `min` that starts there is the plain minimum of the family.
-/
import Idealize.ShloMosaic.PureOps.Ideal.Laws
import Idealize.ShloMosaic.Lib.Pipeline.Value
import Idealize.ShloMosaic.Lib.ValueIdx

namespace Cert.MinOps

open Idealize.ShloMosaic Idealize.ShloMosaic.ValueIdx

/-- The f32 pattern of `+∞` is the greatest extended real. -/
theorem posInf_eq_top : Ideal.ofBits .f32 0x7F800000#32 = (⊤ : EReal) := by
  simp [Ideal.ofBits, Ideal.ieee]

variable {φ : FTy}

/-- A float minimum over ONE axis, on the extended reals: the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The lane minimum of row `p`: the fold of `min` over the row's `b` entries. -/
theorem laneMin_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (multiReduction_minimumf_single src acc h hφ hacc (ix1 p)).trans ?_
  show (Finset.univ : Finset (Fin b)).fold min (Ideal.ofBits φ acc) (fun c => src (h.lift (ix1 p) c)) = _
  refine congrArg (fun f => (Finset.univ : Finset (Fin b)).fold min (Ideal.ofBits φ acc) f) (funext fun c => ?_)
  exact congrArg src (funext fun ax => Fin.ext (by match ax with | ⟨0, _⟩ => rfl | ⟨1, _⟩ => rfl))

/-- The minimum down the rows at lane `q`: the fold of `min` over the column's `a` entries. -/
theorem rowsMin_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (Ideal.ofBits φ acc) (fun r => src (ix2 r q)) := by
  refine (multiReduction_minimumf_single src acc h hφ hacc (ix1 q)).trans ?_
  show (Finset.univ : Finset (Fin a)).fold min (Ideal.ofBits φ acc) (fun r => src (h.lift (ix1 q) r)) = _
  refine congrArg (fun f => (Finset.univ : Finset (Fin a)).fold min (Ideal.ofBits φ acc) f) (funext fun r => ?_)
  exact congrArg src (funext fun ax => Fin.ext (by match ax with | ⟨0, _⟩ => rfl | ⟨1, _⟩ => rfl))

/-- The sum down the rows at lane `q`: the sum of the column's `a` entries. -/
theorem rowsSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) := by
  refine (Ideal.multiReduction_add_single src acc h hφ hacc (ix1 q)).trans ?_
  show ∑ r : Fin a, src (h.lift (ix1 q) r) = _
  refine Finset.sum_congr rfl fun r _ => ?_
  exact congrArg src (funext fun ax => Fin.ext (by match ax with | ⟨0, _⟩ => rfl | ⟨1, _⟩ => rfl))

/-- The host's minimum over the LAST axis of an `[n, a, b]` array, at `(k, p)`: the fold of `min`, from the initial value,
    over `c : Fin b` of the entries `(k, p, c)`. -/
theorem hostLastMin_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.minimumf (F := Ideal) (φ := φ)) x init h' hu (ix2 k p)
      = (Finset.univ : Finset (Fin b)).fold min (init (Shape.Idx.first hu)) (fun c => x (ix3 k p c)) := by
  refine (Host.reduce_eq_fold_single (FloatOps.minimumf (F := Ideal) (φ := φ)) x init h' h hu (ix2 k p)).trans ?_
  show (Finset.univ : Finset (Fin b)).fold min (init (Shape.Idx.first hu)) (fun c => x (h.lift (ix2 k p) c)) = _
  refine congrArg (fun f => (Finset.univ : Finset (Fin b)).fold min (init (Shape.Idx.first hu)) f) (funext fun c => ?_)
  exact congrArg x (funext fun ax => Fin.ext (by match ax with | ⟨0, _⟩ => rfl | ⟨1, _⟩ => rfl | ⟨2, _⟩ => rfl))

/-- The host's minimum over the MIDDLE axis of an `[n, a, b]` array, at `(k, c)`: the fold of `min`, from the initial
    value, over `p : Fin a` of the entries `(k, p, c)`. -/
theorem hostMidMin_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.minimumf (F := Ideal) (φ := φ)) x init h' hu (ix2 k c)
      = (Finset.univ : Finset (Fin a)).fold min (init (Shape.Idx.first hu)) (fun p => x (ix3 k p c)) := by
  refine (Host.reduce_eq_fold_single (FloatOps.minimumf (F := Ideal) (φ := φ)) x init h' h hu (ix2 k c)).trans ?_
  show (Finset.univ : Finset (Fin a)).fold min (init (Shape.Idx.first hu)) (fun p => x (h.lift (ix2 k c) p)) = _
  refine congrArg (fun f => (Finset.univ : Finset (Fin a)).fold min (init (Shape.Idx.first hu)) f) (funext fun p => ?_)
  exact congrArg x (funext fun ax => Fin.ext (by match ax with | ⟨0, _⟩ => rfl | ⟨1, _⟩ => rfl | ⟨2, _⟩ => rfl))

/-- A sum over the indices of an `[n, 1, 1]` array is the sum over its first coordinate. -/
theorem sum_idx_n11 {M : Type*} [AddCommMonoid M] {n : ℕ} (f : (⟨3, ![n, 1, 1]⟩ : Shape).Idx → M) :
    ∑ j, f j = ∑ k : Fin n, f (ix3 k (0 : Fin 1) (0 : Fin 1)) := by
  refine (Fintype.sum_equiv
    (⟨fun k => ix3 k (0 : Fin 1) (0 : Fin 1), fun j => j 0, fun _ => rfl, fun j => funext fun d => ?_⟩ :
      Fin n ≃ (⟨3, ![n, 1, 1]⟩ : Shape).Idx) _ _ fun _ => rfl).symm
  match d with
  | ⟨0, _⟩ => rfl
  | ⟨1, _⟩ => exact Subsingleton.elim (α := Fin 1) _ _
  | ⟨2, _⟩ => exact Subsingleton.elim (α := Fin 1) _ _

end Cert.MinOps
-- ==== Proof.KernelPayload.lean ====
import proofs.«153992_g45595372814773_cont_8to1_c_604_14_alg».proof.Proof.Gen.KernelIdeal.Skeleton
import proofs.«153992_g45595372814773_cont_8to1_c_604_14_alg».proof.Proof.Spec
import proofs.«153992_g45595372814773_cont_8to1_c_604_14_alg».proof.Proof.LibKeepdims
import proofs.«153992_g45595372814773_cont_8to1_c_604_14_alg».proof.Proof.LibMinOps
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen Cert.GaussLL

/-! ## The three per-class tables, stacked and transposed

Row r of the [192, 1000] array the first point builds holds, at class q: for r = d below 64 the scaled excess of the
inverse variance, -1/2 · (e − 1); for r = 64 + d the product m · e; for r = 128 + d the summand 2·ls + m·(m·e) of the
class constant — each a pointwise function of the class row's mean column d and log-deviation column 64 + d. -/

set_option maxHeartbeats 400000 in
theorem pay1_lo (x1 : FVec Ideal S1000x128 .f32) (d : Fin 64) (q : Fin 1000) (r : Fin 192) (hr : r.val = d.val) :
    k0_pay1 (F := Ideal) x1 (ix2 r q) = cNegHalf * (ivar x1 q d - cOne) := by
  unfold k0_pay1
  refine (transpose_ix2_apply _ _ r q).trans ?_
  refine (concatenate_apply_piece (1 : Fin 2) _ _ (ix2 q r) 0 ?hk S1000x64 ?x1 ?hx ?hrk 0 ?hpre (ix2 q d) ?hi ?ha).trans ?_
  case hx => rfl
  case hk => show 0 < 3; omega
  case hrk => rfl
  case hpre => rfl
  case hi =>
    intro b hb
    match b with
    | ⟨0, _⟩ => rfl
    | ⟨1, _⟩ => exact absurd rfl hb
  case ha =>
    show 0 + d.val = r.val
    omega
  have e24 : extractStridedSlice S1000x64 ![0, 64] x1 slices_S1000x128_o0_64_S1000x64 (ix2 q d) = x1 (ix2 q (hi d)) :=
    slice2_axis1_apply 64 x1 _ q d (hi d) rfl
  show cNegHalf * (Ideal.exp (cNegTwo * extractStridedSlice S1000x64 ![0, 64] x1 slices_S1000x128_o0_64_S1000x64 (ix2 q d)) - cOne) = _
  rw [e24]
  rfl

set_option maxHeartbeats 400000 in
theorem pay1_mid (x1 : FVec Ideal S1000x128 .f32) (d : Fin 64) (q : Fin 1000) (r : Fin 192) (hr : r.val = 64 + d.val) :
    k0_pay1 (F := Ideal) x1 (ix2 r q) = mean x1 q d * ivar x1 q d := by
  unfold k0_pay1
  refine (transpose_ix2_apply _ _ r q).trans ?_
  refine (concatenate_apply_piece (1 : Fin 2) _ _ (ix2 q r) 1 ?hk S1000x64 ?x1 ?hx ?hrk 64 ?hpre (ix2 q d) ?hi ?ha).trans ?_
  case hx => rfl
  case hk => show 1 < 3; omega
  case hrk => rfl
  case hpre => rfl
  case hi =>
    intro b hb
    match b with
    | ⟨0, _⟩ => rfl
    | ⟨1, _⟩ => exact absurd rfl hb
  case ha =>
    show 64 + d.val = r.val
    omega
  have e24 : extractStridedSlice S1000x64 ![0, 64] x1 slices_S1000x128_o0_64_S1000x64 (ix2 q d) = x1 (ix2 q (hi d)) :=
    slice2_axis1_apply 64 x1 _ q d (hi d) rfl
  have e23 : extractStridedSlice S1000x64 ![0, 0] x1 slices_S1000x128_o0_0_S1000x64 (ix2 q d) = x1 (ix2 q (lo d)) :=
    slice2_axis1_apply 0 x1 _ q d (lo d) (Nat.zero_add _).symm
  show extractStridedSlice S1000x64 ![0, 0] x1 slices_S1000x128_o0_0_S1000x64 (ix2 q d) * Ideal.exp (cNegTwo * extractStridedSlice S1000x64 ![0, 64] x1 slices_S1000x128_o0_64_S1000x64 (ix2 q d)) = _
  rw [e24, e23]
  rfl

set_option maxHeartbeats 400000 in
theorem pay1_hi (x1 : FVec Ideal S1000x128 .f32) (d : Fin 64) (q : Fin 1000) (r : Fin 192) (hr : r.val = 128 + d.val) :
    k0_pay1 (F := Ideal) x1 (ix2 r q) = cTwo * lsig x1 q d + mean x1 q d * (mean x1 q d * ivar x1 q d) := by
  unfold k0_pay1
  refine (transpose_ix2_apply _ _ r q).trans ?_
  refine (concatenate_apply_piece (1 : Fin 2) _ _ (ix2 q r) 2 ?hk S1000x64 ?x1 ?hx ?hrk 128 ?hpre (ix2 q d) ?hi ?ha).trans ?_
  case hx => rfl
  case hk => show 2 < 3; omega
  case hrk => rfl
  case hpre => rfl
  case hi =>
    intro b hb
    match b with
    | ⟨0, _⟩ => rfl
    | ⟨1, _⟩ => exact absurd rfl hb
  case ha =>
    show 128 + d.val = r.val
    omega
  have e24 : extractStridedSlice S1000x64 ![0, 64] x1 slices_S1000x128_o0_64_S1000x64 (ix2 q d) = x1 (ix2 q (hi d)) :=
    slice2_axis1_apply 64 x1 _ q d (hi d) rfl
  have e23 : extractStridedSlice S1000x64 ![0, 0] x1 slices_S1000x128_o0_0_S1000x64 (ix2 q d) = x1 (ix2 q (lo d)) :=
    slice2_axis1_apply 0 x1 _ q d (lo d) (Nat.zero_add _).symm
  show cTwo * extractStridedSlice S1000x64 ![0, 64] x1 slices_S1000x128_o0_64_S1000x64 (ix2 q d) + extractStridedSlice S1000x64 ![0, 0] x1 slices_S1000x128_o0_0_S1000x64 (ix2 q d) * (extractStridedSlice S1000x64 ![0, 0] x1 slices_S1000x128_o0_0_S1000x64 (ix2 q d) * Ideal.exp (cNegTwo * extractStridedSlice S1000x64 ![0, 64] x1 slices_S1000x128_o0_64_S1000x64 (ix2 q d))) = _
  rw [e24, e23]
  rfl

/-! ## The three tables the scratch buffers receive -/

/-- The first contraction operand at (d, q): rows 0..63 of the stack (the change of float format is the identity). -/
theorem pay2_apply (x1 : FVec Ideal S1000x128 .f32) (d : Fin 64) (q : Fin 1000) :
    k0_pay2 (F := Ideal) x1 (ix2 d q) = cNegHalf * (ivar x1 q d - cOne) := by
  unfold k0_pay2
  refine (congrFun (shapeCast_self _ _) _).trans ?_
  refine (slice2_axis0_apply 0 (k0_pay1 (F := Ideal) x1) slices_S192x1000_o0_0_S64x1000 d q ⟨d.val, by omega⟩ (Nat.zero_add _).symm).trans ?_
  exact pay1_lo x1 d q _ rfl

/-- The second contraction operand at (d, q): rows 64..127 of the stack. -/
theorem pay3_apply (x1 : FVec Ideal S1000x128 .f32) (d : Fin 64) (q : Fin 1000) :
    k0_pay3 (F := Ideal) x1 (ix2 d q) = mean x1 q d * ivar x1 q d := by
  unfold k0_pay3
  refine (congrFun (shapeCast_self _ _) _).trans ?_
  refine (slice2_axis0_apply 64 (k0_pay1 (F := Ideal) x1) slices_S192x1000_o64_0_S64x1000 d q ⟨64 + d.val, by omega⟩ rfl).trans ?_
  exact pay1_mid x1 d q _ rfl

/-- The class constant at q: -1/2 · (K + the sum down rows 128..191 of the stack). -/
theorem pay4_apply (x1 : FVec Ideal S1000x128 .f32) (q : Fin 1000) :
    k0_pay4 (F := Ideal) x1 (ix2 (0 : Fin 1) q)
      = cNegHalf * (cK + ∑ d : Fin 64, (cTwo * lsig x1 q d + mean x1 q d * (mean x1 q d * ivar x1 q d))) := by
  unfold k0_pay4
  refine (congrFun (shapeCast_self _ _) _).trans ?_
  have hsum : shapeCast S1x1000
      (multiReduction (F := Ideal) .add [0] S1000 (extractStridedSlice S64x1000 ![128, 0] (k0_pay1 (F := Ideal) x1) slices_S192x1000_o128_0_S64x1000)
        0x00000000#32 reduces_S64x1000_S1000 (.inl rfl) rfl) shapeCasts_S1000_S1x1000 (ix2 (0 : Fin 1) q)
      = ∑ d : Fin 64, (cTwo * lsig x1 q d + mean x1 q d * (mean x1 q d * ivar x1 q d)) := by
    refine (shapeCast_a_1a_apply _ _ (0 : Fin 1) q).trans ?_
    refine (Cert.MinOps.rowsSum_apply _ _ _ _ _ q).trans ?_
    refine Finset.sum_congr rfl fun d _ => ?_
    refine (slice2_axis0_apply 128 (k0_pay1 (F := Ideal) x1) slices_S192x1000_o128_0_S64x1000 d q ⟨128 + d.val, by omega⟩ rfl).trans ?_
    exact pay1_hi x1 d q _ rfl
  show cNegHalf * (cK + shapeCast S1x1000
      (multiReduction (F := Ideal) .add [0] S1000 (extractStridedSlice S64x1000 ![128, 0] (k0_pay1 (F := Ideal) x1) slices_S192x1000_o128_0_S64x1000)
        0x00000000#32 reduces_S64x1000_S1000 (.inl rfl) rfl) shapeCasts_S1000_S1x1000 (ix2 (0 : Fin 1) q)) = _
  rw [hsum]

/-! ## The output block -/

/-- A [512, 64] by [64, 1000] product into the zero block, at (p, q): the sum over the 64 contracted positions. -/
theorem matmul_block_apply {φ₁ φ₂ : FTy} (lhs : FVec Ideal S512x64 φ₁) (rhs : FVec Ideal S64x1000 φ₂) (p : Fin 512) (q : Fin 1000) :
    matmul dot_S512x64_S64x1000_S512x1000_1_0_0_1_n_n none lhs rhs (constant (F := Ideal) S512x1000 .f32 0x00000000#32) (ix2 p q)
      = ∑ k : Fin 64, lhs (ix2 p k) * rhs (ix2 k q) := by
  refine (Ideal.matmul_constant_zero_apply dot_S512x64_S64x1000_S512x1000_1_0_0_1_n_n none lhs rhs (ix2 p q)).trans ?_
  refine (Equiv.sum_comp (contrEquiv1 dot_S512x64_S64x1000_S512x1000_1_0_0_1_n_n 64 rfl rfl).symm _).symm.trans ?_
  refine Finset.sum_congr rfl fun k _ => ?_
  have hk := contrEquiv1_symm_val dot_S512x64_S64x1000_S512x1000_1_0_0_1_n_n 64 rfl rfl k
  have hl : dot_S512x64_S64x1000_S512x1000_1_0_0_1_n_n.lhsIdx (ix2 p q)
      ((contrEquiv1 dot_S512x64_S64x1000_S512x1000_1_0_0_1_n_n 64 rfl rfl).symm k) = ix2 p k := by
    funext a
    match a with
    | ⟨0, _⟩ => exact Fin.ext rfl
    | ⟨1, _⟩ =>
      exact Fin.ext ((DotDims.lhsIdx_val_of_single (d := dot_S512x64_S64x1000_S512x1000_1_0_0_1_n_n) (cl := (1 : Fin 2)) rfl _ _).trans hk)
  have hr : dot_S512x64_S64x1000_S512x1000_1_0_0_1_n_n.rhsIdx (ix2 p q)
      ((contrEquiv1 dot_S512x64_S64x1000_S512x1000_1_0_0_1_n_n 64 rfl rfl).symm k) = ix2 k q := by
    funext a
    match a with
    | ⟨0, _⟩ =>
      exact Fin.ext ((DotDims.rhsIdx_val_of_single (d := dot_S512x64_S64x1000_S512x1000_1_0_0_1_n_n) (cr := (0 : Fin 2)) rfl _ _).trans hk)
    | ⟨1, _⟩ => exact Fin.ext rfl
  rw [hl, hr]

/-- The body's output block from the batch block and ANY three tables, at (p, q): the two contractions over the 64
    features, the row's scaled squared norm (the same in every column), and the constant row's entry q (the same in
    every row). -/
theorem pay5_apply (x0 : FVec Ideal S512x64 .f32) (t0 t1 : FVec Ideal S64x1000 .bf16) (t2 : FVec Ideal S1x1000 .f32)
    (p : Fin 512) (q : Fin 1000) :
    k0_pay5 (F := Ideal) x0 t0 t1 t2 (ix2 p q)
      = (((∑ k : Fin 64, (x0 (ix2 p k) * x0 (ix2 p k)) * t0 (ix2 k q)) + (∑ k : Fin 64, x0 (ix2 p k) * t1 (ix2 k q)))
          + cNegHalf * (∑ k : Fin 64, x0 (ix2 p k) * x0 (ix2 p k)))
        + t2 (ix2 (0 : Fin 1) q) := by
  unfold k0_pay5
  have hm1 := matmul_block_apply (truncf .bf16 (mulf x0 x0) bitsLt_bf16_f32) t0 p q
  have hm2 := matmul_block_apply (truncf .bf16 x0 bitsLt_bf16_f32) t1 p q
  have hrow : broadcastTo S512x1000
      (mulf (broadcast S512x1 (Scalar.ofBits (F := Ideal) .f32 0xBF000000#32))
        (shapeCast S512x1 (multiReduction (F := Ideal) .add [1] S512 (mulf x0 x0) 0x00000000#32 reduces_S512x64_S512 (.inl rfl) rfl)
          shapeCasts_S512_S512x1)) broadcasts_S512x1_S512x1000 (ix2 p q)
      = cNegHalf * (∑ k : Fin 64, x0 (ix2 p k) * x0 (ix2 p k)) := by
    refine (Cert.Keepdims.broadcastTo_a1_ab_apply _ _ p q).trans ?_
    show cNegHalf * shapeCast S512x1 _ shapeCasts_S512_S512x1 (ix2 p (0 : Fin 1)) = _
    refine congrArg (cNegHalf * ·) ?_
    refine (Cert.Keepdims.shapeCast_a_a1_apply _ _ p 0).trans ?_
    exact Cert.Keepdims.rowSum_apply (mulf x0 x0) _ _ _ p
  have hc : broadcastTo S512x1000 t2 broadcasts_S1x1000_S512x1000 (ix2 p q) = t2 (ix2 (0 : Fin 1) q) :=
    broadcastTo_1b_ab_apply _ _ p q
  exact congrArg₂ (· + ·) (congrArg₂ (· + ·) (congrArg₂ (· + ·) hm1 hm2) hrow) hc

/-- The block's function of the batch block and the class array: the expanded form of the log-likelihood with the
    block's row p in place of the batch row. -/
def blockLL (x0 : FVec Ideal S512x64 .f32) (ce : FVec Ideal S1000x128 .f32) (p : Fin 512) (q : Fin 1000) : EReal :=
  (((∑ d : Fin 64, (x0 (ix2 p d) * x0 (ix2 p d)) * (cNegHalf * (ivar ce q d - cOne)))
      + (∑ d : Fin 64, x0 (ix2 p d) * (mean ce q d * ivar ce q d)))
    + cNegHalf * (∑ d : Fin 64, x0 (ix2 p d) * x0 (ix2 p d)))
  + cNegHalf * (cK + ∑ d : Fin 64, (cTwo * lsig ce q d + mean ce q d * (mean ce q d * ivar ce q d)))

/-- With the three tables built from the class array, the output block is that function. -/
theorem block_apply (x0 : FVec Ideal S512x64 .f32) (ce : FVec Ideal S1000x128 .f32) (p : Fin 512) (q : Fin 1000) :
    k0_pay5 (F := Ideal) x0 (k0_pay2 (F := Ideal) ce) (k0_pay3 (F := Ideal) ce) (k0_pay4 (F := Ideal) ce) (ix2 p q) = blockLL x0 ce p q := by
  rw [pay5_apply x0 (k0_pay2 (F := Ideal) ce) (k0_pay3 (F := Ideal) ce) (k0_pay4 (F := Ideal) ce) p q, pay4_apply ce q]
  unfold blockLL
  simp only [pay2_apply, pay3_apply]

end Cert.KernelIdeal.Payload

end
-- ==== Proof.KernelValue.lean ====
/-
  The kernel's result array, as one function of the two argument arrays.

  The grid has two points, one per block of 512 batch rows. The three scratch tables are built at the first point from
  the class array (whose window is the whole array at every point) and are only read afterwards, so after every point
  they hold the same three functions of the class array; hence at every point the output block is the block function
  of that point's batch block and the class array. Block t of the batch array is rows 512·t .. 512·t + 511, block t
  of the result array the same rows, so the block function read through the result's block is the expanded
  log-likelihood at the array's own row; the two blocks cover the result array.
-/
import proofs.«153992_g45595372814773_cont_8to1_c_604_14_alg».proof.Proof.Gen.KernelIdeal.Value
import proofs.«153992_g45595372814773_cont_8to1_c_604_14_alg».proof.Proof.KernelPieces
import proofs.«153992_g45595372814773_cont_8to1_c_604_14_alg».proof.Proof.KernelPayload
import proofs.«153992_g45595372814773_cont_8to1_c_604_14_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Value Cert.KernelIdeal.Pieces Cert.KernelIdeal.Payload Cert.GaussLL

variable (m : (ℓ : Loc nD τ sig) → Buf (Elt Ideal) ℓ) (ρ : Dev nD → PrngReg)

/-- The printed index maps over the grid: the batch window and the result window sit at block row t, the class window
    at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The class window's block is the whole class array, at every point. -/
theorem iblk1_eq (c : Dev nD) (t : Fin cfg0.N) : (iblk m c 1 t : Vec Ideal S1000x128 .f32) = V m c main_arg1 := by
  obtain ⟨-, -, e2, e3, -, -⟩ := idx_facts t
  funext j
  unfold iblk
  rw [View.read_apply]
  show V m c main_arg1 (((cfg0.win 1).blk t).view.emb j) = V m c main_arg1 j
  refine congrArg (V m c main_arg1) ?_
  funext a
  apply Fin.ext
  match a with
  | ⟨0, _⟩ => show win0_1.index t (0 : Fin 2) * 1000 + 1 * (j 0).val = (j 0).val; omega
  | ⟨1, _⟩ => show win0_1.index t (1 : Fin 2) * 128 + 1 * (j 1).val = (j 1).val; omega

/-- The batch window's block at point t, at (p, d), is the batch array at row 512·t + p. -/
theorem iblk0_apply (c : Dev nD) (t : Fin cfg0.N) (p : Fin 512) (d : Fin 64) (r : Fin 1024) (hr : r.val = 512 * t.val + p.val) :
    (iblk m c 0 t : Vec Ideal S512x64 .f32) (ix2 p d) = V m c main_arg0 (ix2 r d) := by
  obtain ⟨e0, e1, -, -, -, -⟩ := idx_facts t
  unfold iblk
  rw [View.read_apply]
  show V m c main_arg0 (((cfg0.win 0).blk t).view.emb (ix2 p d)) = V m c main_arg0 (ix2 r d)
  refine congrArg (V m c main_arg0) ?_
  funext a
  apply Fin.ext
  match a with
  | ⟨0, _⟩ => show win0_0.index t (0 : Fin 2) * 512 + 1 * p.val = r.val; omega
  | ⟨1, _⟩ => show win0_0.index t (1 : Fin 2) * 64 + 1 * d.val = d.val; omega

/-- After every point the three scratch buffers hold the three tables of the class array: built at the first point,
    kept by the later ones. -/
theorem scratch_inv (c : Dev nD) : ∀ (n : ℕ) (h : n < cfg0.N),
    (outsAt0 m c n h).2.1 = k0_pay2 (F := Ideal) (V m c main_arg1)
    ∧ (outsAt0 m c n h).2.2.1 = k0_pay3 (F := Ideal) (V m c main_arg1)
    ∧ (outsAt0 m c n h).2.2.2 = k0_pay4 (F := Ideal) (V m c main_arg1)
  | 0, h => by
    rw [outsAt0_A m c ⟨0, h⟩ rfl]
    dsimp only
    rw [sout_A_0, sout_A_1, sout_A_2, iblk1_eq]
    exact ⟨rfl, rfl, rfl⟩
  | n + 1, h => by
    by_cases h0 : (n + 1) % 2 = 0
    · rw [outsAt0_A m c ⟨n + 1, h⟩ h0]
      dsimp only
      rw [sout_A_0, sout_A_1, sout_A_2, iblk1_eq]
      exact ⟨rfl, rfl, rfl⟩
    · rw [outsAt0_B m c ⟨n + 1, h⟩ h0]
      dsimp only [sout0_B_0, sout0_B_1, sout0_B_2]
      exact scratch_inv c n (Nat.lt_of_succ_lt h)

/-- So at every point the output's staging buffer ends at the block function of the point's batch block and the
    tables of the class array. -/
theorem out_eq (c : Dev nD) (t : Fin cfg0.N) :
    (outsAt0 m c t.val t.isLt).1
      = k0_pay5 (F := Ideal) (iblk m c 0 t) (k0_pay2 (F := Ideal) (V m c main_arg1)) (k0_pay3 (F := Ideal) (V m c main_arg1))
          (k0_pay4 (F := Ideal) (V m c main_arg1)) := by
  by_cases h0 : t.val % 2 = 0
  · rw [outsAt0_A m c t h0]
    dsimp only
    rw [out_A_2, iblk1_eq]
  · rw [outsAt0_B m c t h0]
    dsimp only
    rw [out_B_2]
    obtain ⟨e0, e1, e2⟩ := scratch_inv m c (t.val - 1) (Nat.lt_of_le_of_lt (Nat.sub_le _ _) t.isLt)
    rw [e0, e1, e2]

/-- The result array's function of the two argument arrays: the expanded log-likelihood at the index's row and class. -/
def G (x : S1024x64.Idx → EReal) (ce : S1000x128.Idx → EReal) : S1024x1000.Idx → EReal :=
  fun i => llKer x ce (i 0) (i 1)

/-- What point t writes back is block t of that function. -/
theorem flushed_eq (c : Dev nD) (t : Fin cfg0.N) :
    (dats m 0 c).flushed 2 t = ((cfg0.win 2).blk t).view.read (Elt Ideal) (G (V m c main_arg0) (V m c main_arg1)) := by
  rw [flushed2, out_eq]
  obtain ⟨-, -, -, -, e4, e5⟩ := idx_facts t
  have hN : t.val < 2 := lt_of_lt_of_eq t.isLt (show cfg0.N = 2 from N_0)
  funext j
  obtain ⟨p, q, rfl⟩ : ∃ (p : Fin 512) (q : Fin 1000), j = ix2 p q := ⟨j 0, j 1, eq_ix2 j⟩
  have hemb : ((cfg0.win 2).blk t).view.emb (ix2 p q) = ix2 (⟨512 * t.val + p.val, by omega⟩ : Fin 1024) q := by
    funext a
    apply Fin.ext
    match a with
    | ⟨0, _⟩ => show win0_2.index t (0 : Fin 2) * 512 + 1 * p.val = 512 * t.val + p.val; omega
    | ⟨1, _⟩ => show win0_2.index t (1 : Fin 2) * 1000 + 1 * q.val = q.val; omega
  show k0_pay5 (F := Ideal) (iblk m c 0 t) (k0_pay2 (F := Ideal) (V m c main_arg1)) (k0_pay3 (F := Ideal) (V m c main_arg1))
      (k0_pay4 (F := Ideal) (V m c main_arg1)) (ix2 p q)
    = G (V m c main_arg0) (V m c main_arg1) (((cfg0.win 2).blk t).view.emb (ix2 p q))
  rw [hemb, block_apply]
  show blockLL (iblk m c 0 t) (V m c main_arg1) p q
    = llKer (V m c main_arg0) (V m c main_arg1) (⟨512 * t.val + p.val, by omega⟩ : Fin 1024) q
  unfold blockLL llKer
  simp only [iblk0_apply m c t p _ (⟨512 * t.val + p.val, by omega⟩ : Fin 1024) rfl]

/-- An index of the result array is in point t's block iff each coordinate is in the block's range on its axis. -/
theorem mem_blk (t : Fin cfg0.N) (i : S1024x1000.Idx) :
    i ∈ ((cfg0.win 2).blk t).view.set ↔ ∀ a : Fin 2, win0_2.index t a * S512x1000.size a ≤ (i a).val ∧ (i a).val < win0_2.index t a * S512x1000.size a + S512x1000.size a := by
  show i ∈ ((View.whole main_v0).slice (win0_2.rect t)).set ↔ _
  rw [View.set_slice_whole, Rect.mem_set_unit]
  exact Iff.rfl

/-- The two blocks cover the result array: row r lies in block r / 512. -/
theorem cover (i : S1024x1000.Idx) : ∃ t : Fin cfg0.N, (cfg0.win 2).flush t = true ∧ i ∈ ((cfg0.win 2).blk t).view.set := by
  have hi0 : (i 0).val < 1024 := (i 0).isLt
  have hi1 : (i 1).val < 1000 := (i 1).isLt
  have hN : cfg0.N = 2 := N_0
  refine ⟨⟨(i 0).val / 512, by rw [hN]; omega⟩, flush0_2 _, ?_⟩
  obtain ⟨-, -, -, -, e4, e5⟩ := idx_facts ⟨(i 0).val / 512, by rw [hN]; omega⟩
  rw [mem_blk]
  intro a
  match a with
  | ⟨0, _⟩ =>
    show win0_2.index _ (0 : Fin 2) * 512 ≤ (i 0).val ∧ (i 0).val < win0_2.index _ (0 : Fin 2) * 512 + 512
    rw [e4]
    show (i 0).val / 512 * 512 ≤ (i 0).val ∧ (i 0).val < (i 0).val / 512 * 512 + 512
    omega
  | ⟨1, _⟩ =>
    show win0_2.index _ (1 : Fin 2) * 1000 ≤ (i 1).val ∧ (i 1).val < win0_2.index _ (1 : Fin 2) * 1000 + 1000
    rw [e5]
    omega

/-- The result array after the run is that function of the argument arrays as launched. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) (cover)

/-- The run, read: the result array at the expanded log-likelihood of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.KValue

end
-- ==== Proof.RefRun.lean ====
/-
  The reference program's run, written out: the program's main function as one straight line of host
  operations (the two outlined functions' operations listed at their call sites, over the call's own buffers),
  and the fact that every weakly fair execution ends with the result buffer at the operations' composed pure
  term of the two argument arrays, the arguments unchanged.
-/
import proofs.«153992_g45595372814773_cont_8to1_c_604_14_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's operations in order: eight that lay out the index vector and the broadcast batch, the
    twenty-three of the outlined gather (its bounds checks, the one select of the outlined where among them)
    over that call's own buffers, and the twenty-two of the per-feature term and its sum. -/
abbrev ops : List (HloOp τ sig (Elt F)) :=
  [ nullary main_v0 (iotaInDim S1000 32 0),
    reshape main_v0 main_v1 rfl shapeCasts_S1000_S1x1000,
    unary main_v1 main_v2 (broadcastInDim S1024x1000 ![0, 1] bcast_S1x1000_S1024x1000_0_1 : (⟨S1x1000, .i32⟩ : BufTy).Contents (Elt F) → (⟨S1024x1000, .i32⟩ : BufTy).Contents (Elt F)),
    reshape main_v2 main_v3 rfl shapeCasts_S1024x1000_S1024000,
    unary main_arg0 main_v4 (broadcastInDim S1024x1x64 ![0, 2] bcast_S1024x64_S1024x1x64_0_2 : (⟨S1024x64, .f32⟩ : BufTy).Contents (Elt F) → (⟨S1024x1x64, .f32⟩ : BufTy).Contents (Elt F)),
    unary main_v4 main_v5 (broadcastInDim S1024x1x1000x64 ![0, 1, 3] bcast_S1024x1x64_S1024x1x1000x64_0_1_3 : (⟨S1024x1x64, .f32⟩ : BufTy).Contents (Elt F) → (⟨S1024x1x1000x64, .f32⟩ : BufTy).Contents (Elt F)),
    reshape main_v5 main_v6 rfl shapeCasts_S1024x1x1000x64_S1024x1000x64,
    reshape main_v6 main_v7 rfl shapeCasts_S1024x1000x64_S1024000x64,
    TRef.nullary main_call0.c (constantI S_ 32 0#32),
    TRef.unary main_call0.c main_call0.v0 (broadcastInDim S1024000 ![] bcast_S_S1024000),
    TRef.binary (.of main_v3 : TRef sig ⟨S1024000, .i32⟩) main_call0.v0 main_call0.v1 (cmpi .slt),
    TRef.nullary main_call0.c_0 (constantI S_ 32 1000#32),
    TRef.unary main_call0.c_0 main_call0.v2 (broadcastInDim S1024000 ![] bcast_S_S1024000),
    TRef.binary (.of main_v3 : TRef sig ⟨S1024000, .i32⟩) main_call0.v2 main_call0.v3 addi,
    TRef.ternary main_call0.v1 main_call0.v3 (.of main_v3 : TRef sig ⟨S1024000, .i32⟩) main_call0.call0.v0 select,
    TRef.unary main_call0.call0.v0 main_call0.v5 (broadcastInDim S1024000x1 ![0] bcast_S1024000_S1024000x1_0),
    TRef.nullary main_call0.c_1 (constantI S1 32 999#32),
    TRef.nullary main_call0.c_2 (constantI S_ 32 0#32),
    TRef.unary main_call0.c_2 main_call0.v6 (broadcastInDim S1024000x1 ![] bcast_S_S1024000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024000x1 ![0, 1] bcast_S1x1_S1024000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024000x1_S1024000_d1 h_S_),
    TRef.binary (.of main_arg1 : TRef sig ⟨S1000x128, .f32⟩) main_call0.v5 main_call0.v13 (fun x i => Host.gather gather_S1000x128_S1024000x1_S1024000x128_1_0_n_n_0_1_1128 x i),
    TRef.unary main_call0.v12 main_call0.v14 (broadcastInDim S1024000x128 ![0] bcast_S1024000_S1024000x128_0),
    TRef.nullary main_call0.cst (constant S_ .f32 0x7FC00000#32),
    TRef.unary main_call0.cst main_call0.v15 (broadcastInDim S1024000x128 ![] bcast_S_S1024000x128),
    TRef.ternary main_call0.v14 main_call0.v13 main_call0.v15 main_call0.v16 select,
    unary main_v8 main_v9 ((extractStridedSlice S1024000x64 ![0, 0] · slices_S1024000x128_S1024000x64_0_0) : (⟨S1024000x128, .f32⟩ : BufTy).Contents (Elt F) → (⟨S1024000x64, .f32⟩ : BufTy).Contents (Elt F)),
    unary main_v8 main_v10 ((extractStridedSlice S1024000x64 ![0, 64] · slices_S1024000x128_S1024000x64_0_64) : (⟨S1024000x128, .f32⟩ : BufTy).Contents (Elt F) → (⟨S1024000x64, .f32⟩ : BufTy).Contents (Elt F)),
    nullary main_cst (constant S_ .f32 0x40000000#32),
    unary main_cst main_v11 (broadcastInDim S1024000x64 ![] bcast_S_S1024000x64 : (⟨S_, .f32⟩ : BufTy).Contents (Elt F) → (⟨S1024000x64, .f32⟩ : BufTy).Contents (Elt F)),
    binary main_v11 main_v10 main_v12 (mulf : (⟨S1024000x64, .f32⟩ : BufTy).Contents (Elt F) → (⟨S1024000x64, .f32⟩ : BufTy).Contents (Elt F) → (⟨S1024000x64, .f32⟩ : BufTy).Contents (Elt F)),
    nullary main_cst_0 (constant S_ .f32 0x3FEB3F8E#32),
    unary main_cst_0 main_v13 (broadcastInDim S1024000x64 ![] bcast_S_S1024000x64 : (⟨S_, .f32⟩ : BufTy).Contents (Elt F) → (⟨S1024000x64, .f32⟩ : BufTy).Contents (Elt F)),
    binary main_v13 main_v12 main_v14 (addf : (⟨S1024000x64, .f32⟩ : BufTy).Contents (Elt F) → (⟨S1024000x64, .f32⟩ : BufTy).Contents (Elt F) → (⟨S1024000x64, .f32⟩ : BufTy).Contents (Elt F)),
    binary main_v7 main_v9 main_v15 (subf : (⟨S1024000x64, .f32⟩ : BufTy).Contents (Elt F) → (⟨S1024000x64, .f32⟩ : BufTy).Contents (Elt F) → (⟨S1024000x64, .f32⟩ : BufTy).Contents (Elt F)),
    binary main_v15 main_v15 main_v16 (mulf : (⟨S1024000x64, .f32⟩ : BufTy).Contents (Elt F) → (⟨S1024000x64, .f32⟩ : BufTy).Contents (Elt F) → (⟨S1024000x64, .f32⟩ : BufTy).Contents (Elt F)),
    nullary main_cst_1 (constant S_ .f32 0xC0000000#32),
    unary main_cst_1 main_v17 (broadcastInDim S1024000x64 ![] bcast_S_S1024000x64 : (⟨S_, .f32⟩ : BufTy).Contents (Elt F) → (⟨S1024000x64, .f32⟩ : BufTy).Contents (Elt F)),
    binary main_v17 main_v10 main_v18 (mulf : (⟨S1024000x64, .f32⟩ : BufTy).Contents (Elt F) → (⟨S1024000x64, .f32⟩ : BufTy).Contents (Elt F) → (⟨S1024000x64, .f32⟩ : BufTy).Contents (Elt F)),
    unary main_v18 main_v19 (Host.exp : (⟨S1024000x64, .f32⟩ : BufTy).Contents (Elt F) → (⟨S1024000x64, .f32⟩ : BufTy).Contents (Elt F)),
    binary main_v16 main_v19 main_v20 (mulf : (⟨S1024000x64, .f32⟩ : BufTy).Contents (Elt F) → (⟨S1024000x64, .f32⟩ : BufTy).Contents (Elt F) → (⟨S1024000x64, .f32⟩ : BufTy).Contents (Elt F)),
    binary main_v14 main_v20 main_v21 (addf : (⟨S1024000x64, .f32⟩ : BufTy).Contents (Elt F) → (⟨S1024000x64, .f32⟩ : BufTy).Contents (Elt F) → (⟨S1024000x64, .f32⟩ : BufTy).Contents (Elt F)),
    nullary main_cst_2 (constant S_ .f32 0xBF000000#32),
    unary main_cst_2 main_v22 (broadcastInDim S1024000x64 ![] bcast_S_S1024000x64 : (⟨S_, .f32⟩ : BufTy).Contents (Elt F) → (⟨S1024000x64, .f32⟩ : BufTy).Contents (Elt F)),
    binary main_v22 main_v21 main_v23 (mulf : (⟨S1024000x64, .f32⟩ : BufTy).Contents (Elt F) → (⟨S1024000x64, .f32⟩ : BufTy).Contents (Elt F) → (⟨S1024000x64, .f32⟩ : BufTy).Contents (Elt F)),
    nullary main_cst_3 (constant S_ .f32 0x00000000#32),
    binary main_v23 main_cst_3 main_v24 ((fun x v => Host.reduceAdd x v reducesTo_S1024000x64_S1024000_d1 h_S_) : (⟨S1024000x64, .f32⟩ : BufTy).Contents (Elt F) → (⟨S_, .f32⟩ : BufTy).Contents (Elt F) → (⟨S1024000, .f32⟩ : BufTy).Contents (Elt F)),
    reshape main_v24 main_v25 rfl shapeCasts_S1024000_S1024x1000 ]

set_option maxRecDepth 2048 in
/-- The main function is that straight line: the outlined functions unfolded at their calls, the sequencing
    reassociated; an operation stated over typed references is the same operation over the buffers. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., reshape_bufs_sub .., unary_bufs_sub .., reshape_bufs_sub .., unary_bufs_sub .., unary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., reshape_bufs_sub ..⟩

/-! ## The composed term, stage by stage -/

/-- The class index of each of the 1024000 (batch, class) rows: an iota over the 1000 classes, repeated for
    each of the 1024 batch rows and flattened, so that row 1000·b + c holds c. -/
def classIdx : IVec S1024000 32 :=
  shapeCast S1024000
    (broadcastInDim S1024x1000 ![0, 1] bcast_S1x1000_S1024x1000_0_1
      (shapeCast S1x1000 (iotaInDim S1000 32 0) shapeCasts_S1000_S1x1000))
    shapeCasts_S1024x1000_S1024000

/-- The batch array repeated for each class and flattened: row 1000·b + c holds the batch row b. -/
def xRows (x : FVec F S1024x64 .f32) : FVec F S1024000x64 .f32 :=
  shapeCast S1024000x64
    (shapeCast S1024x1000x64
      (broadcastInDim S1024x1x1000x64 ![0, 1, 3] bcast_S1024x1x64_S1024x1x1000x64_0_1_3
        (broadcastInDim S1024x1x64 ![0, 2] bcast_S1024x64_S1024x1x64_0_2 x))
      shapeCasts_S1024x1x1000x64_S1024x1000x64)
    shapeCasts_S1024x1000x64_S1024000x64

/-- The index after the wrap of negative values: i + 1000 where i < 0, else i. -/
def wrapIdx : IVec S1024000 32 :=
  select (cmpi .slt classIdx (broadcastInDim S1024000 ![] bcast_S_S1024000 (constantI S_ 32 0#32)))
    (addi classIdx (broadcastInDim S1024000 ![] bcast_S_S1024000 (constantI S_ 32 1000#32)))
    classIdx

/-- The start indices of the gather: the wrapped index as a column. -/
def startIdx : IVec S1024000x1 32 :=
  broadcastInDim S1024000x1 ![0] bcast_S1024000_S1024000x1_0 wrapIdx

/-- The bounds mask: per row, whether 0 ≤ index ≤ 999 (the and over the unit axis, from true). -/
def inBounds : IVec S1024000 1 :=
  Host.reduce IntOp.andi
    (andi (cmpi .sge startIdx (broadcastInDim S1024000x1 ![] bcast_S_S1024000x1 (constantI S_ 32 0#32)))
      (cmpi .sle startIdx
        (broadcastInDim S1024000x1 ![0, 1] bcast_S1x1_S1024000x1_0_1
          (broadcastInDim S1x1 ![1] bcast_S1_S1x1_1 (constantI S1 32 999#32)))))
    (constantI S_ 1 1#1) reducesTo_S1024000x1_S1024000_d1 h_S_

/-- The gathered class rows: row r of the class table at the start index of r. -/
def gathered (ce : FVec F S1000x128 .f32) : FVec F S1024000x128 .f32 :=
  Host.gather gather_S1000x128_S1024000x1_S1024000x128_1_0_n_n_0_1_1128 ce startIdx

/-- The table the outlined gather returns: the gathered row where the index is in bounds, else the fill word. -/
def table (ce : FVec F S1000x128 .f32) : FVec F S1024000x128 .f32 :=
  select (broadcastInDim S1024000x128 ![0] bcast_S1024000_S1024000x128_0 inBounds) (gathered ce)
    (broadcastInDim S1024000x128 ![] bcast_S_S1024000x128 (constant S_ .f32 0x7FC00000#32))

/-- The means: columns 0..63 of the table. -/
def meanRows (ce : FVec F S1000x128 .f32) : FVec F S1024000x64 .f32 :=
  extractStridedSlice S1024000x64 ![0, 0] (table ce) slices_S1024000x128_S1024000x64_0_0

/-- The log standard deviations: columns 64..127 of the table. -/
def lsRows (ce : FVec F S1000x128 .f32) : FVec F S1024000x64 .f32 :=
  extractStridedSlice S1024000x64 ![0, 64] (table ce) slices_S1024000x128_S1024000x64_0_64

/-- A scalar word broadcast over the [1024000, 64] rows. -/
def splat (w : BitVec 32) : FVec F S1024000x64 .f32 :=
  broadcastInDim S1024000x64 ![] bcast_S_S1024000x64 (constant S_ .f32 w)

/-- The difference x − m, per row and feature. -/
def diffRows (x : FVec F S1024x64 .f32) (ce : FVec F S1000x128 .f32) : FVec F S1024000x64 .f32 :=
  subf (xRows x) (meanRows ce)

/-- The per-feature term: −1/2 · ((L + 2·ls) + (x − m)² · exp(−2·ls)). -/
def termRows (x : FVec F S1024x64 .f32) (ce : FVec F S1000x128 .f32) : FVec F S1024000x64 .f32 :=
  mulf (splat 0xBF000000#32)
    (addf (addf (splat 0x3FEB3F8E#32) (mulf (splat 0x40000000#32) (lsRows ce)))
      (mulf (mulf (diffRows x ce) (diffRows x ce)) (Host.exp (mulf (splat 0xC0000000#32) (lsRows ce)))))

/-- The program's result as a function of its two arguments: the sum of the per-feature terms over the 64
    features from zero, per row, laid out as [1024, 1000]. -/
def refTerm (x : FVec F S1024x64 .f32) (ce : FVec F S1000x128 .f32) : FVec F S1024x1000 .f32 :=
  shapeCast S1024x1000
    (Host.reduceAdd (termRows x ce) (constant S_ .f32 0x00000000#32) reducesTo_S1024000x64_S1024000_d1 h_S_)
    shapeCasts_S1024000_S1024x1000

/-! ## The run -/

/-- Contents moved to a buffer's own type and back are the contents. -/
theorem ofBuf_toBuf {T : BufTy} (x : TRef sig T) (v : T.Contents (Elt F)) : x.ofBuf (x.toBuf v) = v := by
  obtain ⟨r, h, _, _⟩ := x
  subst h
  rfl

/-- At the class table's buffer the move is the identity. -/
theorem ofBuf_arg1 (h1 h2 h3) (v : (main_arg1 : Ref sig .tc).ty.Contents (Elt F)) :
    (TRef.of (T := ⟨S1000x128, .f32⟩) main_arg1 h1 h2 h3).ofBuf v = v := rfl

/-- At the index vector's buffer the move is the identity. -/
theorem ofBuf_v3 (h1 h2 h3) (v : (main_v3 : Ref sig .tc).ty.Contents (Elt F)) :
    (TRef.of (T := ⟨S1024000, .i32⟩) main_v3 h1 h2 h3).ofBuf v = v := rfl

/-- At the gathered table's buffer the move is the identity. -/
theorem toBuf_v8 (h1 h2 h3) (v : (⟨S1024000x128, .f32⟩ : BufTy).Contents (Elt F)) :
    (TRef.of (T := ⟨S1024000x128, .f32⟩) main_v8 h1 h2 h3).toBuf v = v := rfl

attribute [local irreducible] Host.reduce Host.gather Host.reduceAdd Host.exp shapeCast broadcastInDim extractStridedSlice iotaInDim in
set_option maxRecDepth 8192 in
set_option maxHeartbeats 1000000 in
/-- The fold of the operations at the result buffer is the composed term of the two arguments. -/
theorem out_eq (V : Valuation τ sig (Elt F)) :
    after ops V (main_v25 : DevRef τ sig) = refTerm (V (main_arg0 : DevRef τ sig)) (V (main_arg1 : DevRef τ sig)) := by
  after_results_simp
  simp only [ofBuf_toBuf, ofBuf_arg1, ofBuf_v3, toBuf_v8]
  unfold refTerm termRows diffRows splat lsRows meanRows table gathered inBounds startIdx wrapIdx xRows classIdx
  rfl

set_option maxRecDepth 8192 in
theorem arg0_eq (V : Valuation τ sig (Elt F)) :
    after ops V (main_arg0 : DevRef τ sig) = V (main_arg0 : DevRef τ sig) := by
  after_results_simp

set_option maxRecDepth 8192 in
theorem arg1_eq (V : Valuation τ sig (Elt F)) :
    after ops V (main_arg1 : DevRef τ sig) = V (main_arg1 : DevRef τ sig) := by
  after_results_simp

/-- On the one device, for any float values, from any memory with zero counters: every weakly fair execution of
    the main function terminates with the result buffer at the composed term of the two arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v25).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.RefStagesA.lean ====
/-
  The reference program's layout operations, each chain read at an index written by its coordinates.

  The reference flattens the pair (batch row b, class c) into one row r = 1000 b + c of a [1024000, ...] array.
  The batch array repeated across the classes reads, at (r, d), the entry (b, d); the class index vector reads, at r,
  the word of c; a column slice of the gathered table from offset o reads, at (r, j), the table at (r, o + j); the sum over
  the features at r is the initial value plus the sum over k of the entries (r, k); and the final reshape to
  [1024, 1000] reads, at (b, c), the flat vector at r. Each is a statement about row-major positions:
  (b * 1000 + c) * 64 + d on both sides of a reshape, and a broadcast reads the operand at the coordinates its
  dimension map names.
-/
import proofs.«153992_g45595372814773_cont_8to1_c_604_14_alg».proof.Proof.Gen.ReferenceIdeal
import proofs.«153992_g45595372814773_cont_8to1_c_604_14_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefStages

open Idealize.ShloMosaic Idealize.ShloMosaic.ValueIdx Cert.ReferenceIdeal

/-- The flat row of the pair (batch row b, class c). -/
def row (b : Fin 1024) (c : Fin 1000) : Fin 1024000 := ⟨1000 * b.val + c.val, by omega⟩

theorem row_val (b : Fin 1024) (c : Fin 1000) : (row b c).val = 1000 * b.val + c.val := rfl

variable {α : Type}

/-! ### The batch array repeated across the classes -/

/-- The batch array broadcast to [1024, 1, 64], then to [1024, 1, 1000, 64], reshaped to [1024, 1000, 64] and to
    [1024000, 64]: at (row b c, d) it reads the entry (b, d). -/
theorem xRep_apply (x : S1024x64.Idx → α)
    (h1 : S1024x64.BroadcastsInDim S1024x1x64 (![0, 2] : Fin 2 → Fin S1024x1x64.rank))
    (h2 : S1024x1x64.BroadcastsInDim S1024x1x1000x64 (![0, 1, 3] : Fin 3 → Fin S1024x1x1000x64.rank))
    (h3 : S1024x1x1000x64.ShapeCasts S1024x1000x64)
    (h4 : S1024x1000x64.ShapeCasts S1024000x64)
    (b : Fin 1024) (c : Fin 1000) (d : Fin 64) :
    shapeCast S1024000x64
        (shapeCast S1024x1000x64
          (broadcastInDim S1024x1x1000x64 ![0, 1, 3] h2 (broadcastInDim S1024x1x64 ![0, 2] h1 x)) h3) h4
        (ix2 (row b c) d)
      = x (ix2 b d) := by
  rw [shapeCast_apply _ h4 (ix2 (row b c) d) (ix3 b c d) (by
        rw [Shape.rowMajor_val_three, Shape.rowMajor_val_two]
        show (b.val * 1000 + c.val) * 64 + d.val = (1000 * b.val + c.val) * 64 + d.val
        omega),
    shapeCast_apply _ h3 (ix3 b c d) (ix4 b (0 : Fin 1) c d) (by
        rw [Shape.rowMajor_val_four, Shape.rowMajor_val_three]
        show ((b.val * 1 + 0) * 1000 + c.val) * 64 + d.val = (b.val * 1000 + c.val) * 64 + d.val
        omega),
    broadcastInDim_apply _ h2 _ (ix4 b (0 : Fin 1) c d) (ix3 b (0 : Fin 1) d) (by
        intro a
        match a with
        | ⟨0, _⟩ => rfl
        | ⟨1, _⟩ => rfl
        | ⟨2, _⟩ => rfl),
    broadcastInDim_apply _ h1 _ (ix3 b (0 : Fin 1) d) (ix2 b d) (by
        intro a
        match a with
        | ⟨0, _⟩ => rfl
        | ⟨1, _⟩ => rfl)]

/-! ### The class index vector -/

/-- The iota over the classes reshaped to [1, 1000], broadcast to [1024, 1000] and reshaped to [1024000]: at
    row b c it is the word of c. -/
theorem classIdx_apply
    (h1 : S1000.ShapeCasts S1x1000)
    (h2 : S1x1000.BroadcastsInDim S1024x1000 (![0, 1] : Fin 2 → Fin S1024x1000.rank))
    (h3 : S1024x1000.ShapeCasts S1024000)
    (b : Fin 1024) (c : Fin 1000) :
    shapeCast S1024000
        (broadcastInDim S1024x1000 ![0, 1] h2 (shapeCast S1x1000 (iotaInDim S1000 32 0) h1)) h3
        (ix1 (row b c))
      = BitVec.ofNat 32 c.val := by
  rw [shapeCast_apply _ h3 (ix1 (row b c)) (ix2 b c) (by
        rw [Shape.rowMajor_val_two, Shape.rowMajor_val_one]
        show b.val * 1000 + c.val = 1000 * b.val + c.val
        omega),
    broadcastInDim_apply _ h2 _ (ix2 b c) (ix2 (0 : Fin 1) c) (by
        intro a
        match a with
        | ⟨0, _⟩ => rfl
        | ⟨1, _⟩ => rfl),
    shapeCast_apply _ h1 (ix2 (0 : Fin 1) c) (ix1 c) (by
        rw [Shape.rowMajor_val_two, Shape.rowMajor_val_one]
        show c.val = 0 * 1000 + c.val
        omega)]
  rfl

end Cert.ReferenceIdeal.RefStages

end
-- ==== Proof.RefStagesB.lean ====
/-
  The reference program's table lookup, read at an index.

  The lookup takes a vector of class indices, one per flat row, adds the table height to a negative index, clamps,
  gathers the table's rows, and masks the rows whose index was out of range. On a row whose index is the word of a
  class c below 1000 nothing of that bites: the index is not negative as a signed word, so the correction keeps it;
  it is between 0 and 999, so both range comparisons are 1, their conjunction is 1, and the and-reduction over the
  unit axis from 1 is 1; the gather's clamp min(c, 999) is c; and the final select on a 1 keeps the gathered value.
  So row r of the result is row c of the table.
-/
import proofs.«153992_g45595372814773_cont_8to1_c_604_14_alg».proof.Proof.Gen.ReferenceIdeal
import Idealize.ShloMosaic.Lib.ValueIdx
import Idealize.ShloMosaic.Lib.ValueLayout
import Idealize.ShloMosaic.Lib.Pipeline.Value
import Idealize.ShloMosaic.Lib.IdealHost
import Idealize.ShloMosaic.Lib.Affine
import Idealize.ShloMosaic.PureOps.Reduce

noncomputable section

namespace Cert.ReferenceIdeal.RefStages

open Idealize.ShloMosaic Idealize.ShloMosaic.ValueIdx Cert.ReferenceIdeal

variable {α : Type}

/-! ### Words of small naturals, compared as signed integers -/

/-- The 32-bit word of a natural below 1000 reads, as a signed integer, that natural. -/
theorem toInt_ofNat_small (n : Nat) (hn : n < 1000) : (BitVec.ofNat 32 n).toInt = (n : Int) := by
  rw [BitVec.toInt_eq_toNat_cond, BitVec.toNat_ofNat]
  have h : n % 2 ^ 32 = n := Nat.mod_eq_of_lt (by omega)
  rw [h]
  split
  · rfl
  · omega

/-- Such a word is not below zero … -/
theorem cmpi_slt_zero_small (n : Nat) (hn : n < 1000) : IntOp.cmpi .slt (BitVec.ofNat 32 n) 0#32 = 0#1 := by
  refine eq_zero_of_ne_one fun h => ?_
  have := IntOp.cmpi_slt.1 h
  rw [toInt_ofNat_small n hn] at this
  have h0 : (0#32 : BitVec 32).toInt = 0 := by decide
  omega

/-- … it is at least zero … -/
theorem cmpi_sge_zero_small (n : Nat) (hn : n < 1000) : IntOp.cmpi .sge (BitVec.ofNat 32 n) 0#32 = 1#1 := by
  refine IntOp.cmpi_sge.2 ?_
  rw [toInt_ofNat_small n hn]
  have h0 : (0#32 : BitVec 32).toInt = 0 := by decide
  omega

/-- … and at most 999. -/
theorem cmpi_sle_999_small (n : Nat) (hn : n < 1000) : IntOp.cmpi .sle (BitVec.ofNat 32 n) 999#32 = 1#1 := by
  refine IntOp.cmpi_sle.2 ?_
  rw [toInt_ofNat_small n hn]
  have h0 : (999#32 : BitVec 32).toInt = 999 := by decide
  omega

/-! ### The negative-index correction keeps a class index -/

/-- Where the index at j is the word of a natural below 1000, the select between the index plus 1000 and the index,
    on the comparison of the index with zero, is the index. -/
theorem whereIdx_apply (idx : IVec S1024000 32)
    (h0 : S_.BroadcastsInDim S1024000 (![] : Fin 0 → Fin S1024000.rank))
    (h0' : S_.BroadcastsInDim S1024000 (![] : Fin 0 → Fin S1024000.rank))
    (j : S1024000.Idx) (n : Nat) (hn : n < 1000) (hidx : idx j = BitVec.ofNat 32 n) :
    select (cmpi .slt idx (broadcastInDim S1024000 ![] h0 (constantI S_ 32 0#32)))
        (addi idx (broadcastInDim S1024000 ![] h0' (constantI S_ 32 1000#32))) idx j
      = idx j := by
  show Scalar.select (IntOp.cmpi .slt (idx j) 0#32) _ (idx j) = idx j
  rw [hidx, cmpi_slt_zero_small n hn, select_zero]

/-! ### The index vector as a one-column matrix -/

/-- A vector broadcast along axis 0 to a one-column matrix reads, at (r, 0), the vector at r. -/
theorem bcastCol_apply (v : S1024000.Idx → α)
    (h : S1024000.BroadcastsInDim S1024000x1 (![0] : Fin 1 → Fin S1024000x1.rank)) (r : Fin 1024000) :
    broadcastInDim S1024000x1 ![0] h v (ix2 r (0 : Fin 1)) = v (ix1 r) :=
  broadcastInDim_apply _ h _ (ix2 r (0 : Fin 1)) (ix1 r) (by
    intro a
    match a with
    | ⟨0, _⟩ => rfl)

/-! ### The in-range mask -/

/-- A fold of and, from 1, over a family that is 1 everywhere is 1. -/
theorem fold_andi_one {ι : Type} (s : Finset ι) : s.fold IntOp.andi 1#1 (fun _ => (1#1 : BitVec 1)) = 1#1 := by
  classical
  refine Finset.induction_on s ?_ ?_
  · rfl
  · intro a u ha ih
    rw [Finset.fold_insert ha, ih]
    decide

/-- Where the index at (r, 0) is the word of a natural below 1000, the and-reduction over the unit axis of
    "at least 0 and at most 999", from 1, is 1 at r. -/
theorem mask_apply (idx2 : IVec S1024000x1 32)
    (h6 : S_.BroadcastsInDim S1024000x1 (![] : Fin 0 → Fin S1024000x1.rank))
    (h8 : S1.BroadcastsInDim S1x1 (![1] : Fin 1 → Fin S1x1.rank))
    (h9 : S1x1.BroadcastsInDim S1024000x1 (![0, 1] : Fin 2 → Fin S1024000x1.rank))
    (hred : S1024000x1.ReducesTo [1] S1024000) (hu : 0 < S_.numel)
    (r : Fin 1024000) (n : Nat) (hn : n < 1000) (hidx : idx2 (ix2 r (0 : Fin 1)) = BitVec.ofNat 32 n) :
    Host.reduce IntOp.andi
        (andi (cmpi .sge idx2 (broadcastInDim S1024000x1 ![] h6 (constantI S_ 32 0#32)))
          (cmpi .sle idx2 (broadcastInDim S1024000x1 ![0, 1] h9 (broadcastInDim S1x1 ![1] h8 (constantI S1 32 999#32)))))
        (constantI S_ 1 1#1) hred hu (ix1 r)
      = 1#1 := by
  have hR : S1024000x1.Reduces [1] S1024000 := by decide
  rw [Host.reduce_eq_fold_single IntOp.andi _ _ hred hR hu (ix1 r)]
  have hf : (andi (cmpi .sge idx2 (broadcastInDim S1024000x1 ![] h6 (constantI S_ 32 0#32)))
        (cmpi .sle idx2 (broadcastInDim S1024000x1 ![0, 1] h9 (broadcastInDim S1x1 ![1] h8 (constantI S1 32 999#32)))))
      ∘ hR.lift (ix1 r) = fun _ => 1#1 := by
    funext k
    have hk : k.val < 1 := k.isLt
    have hl : hR.lift (ix1 r) k = ix2 r (0 : Fin 1) :=
      funext fun ax => Fin.ext (by
        match ax with
        | ⟨0, _⟩ => rfl
        | ⟨1, _⟩ => show k.val = 0; omega)
    show IntOp.andi (IntOp.cmpi .sge (idx2 (hR.lift (ix1 r) k)) 0#32)
        (IntOp.cmpi .sle (idx2 (hR.lift (ix1 r) k)) 999#32) = 1#1
    rw [hl, hidx, cmpi_sge_zero_small n hn, cmpi_sle_999_small n hn]
    decide
  rw [hf]
  exact fold_andi_one _

/-! ### The masked select -/

/-- Where the mask is 1 at r, the select on the mask broadcast along the columns keeps the first operand at (r, col). -/
theorem takeSelect_apply (mask : IVec S1024000 1) (g fill : S1024000x128.Idx → α)
    (h14 : S1024000.BroadcastsInDim S1024000x128 (![0] : Fin 1 → Fin S1024000x128.rank))
    (r : Fin 1024000) (col : Fin 128) (hm : mask (ix1 r) = 1#1) :
    select (broadcastInDim S1024000x128 ![0] h14 mask) g fill (ix2 r col) = g (ix2 r col) := by
  show Scalar.select (broadcastInDim S1024000x128 ![0] h14 mask (ix2 r col)) _ _ = _
  rw [broadcastInDim_apply _ h14 mask (ix2 r col) (ix1 r) (by
        intro a
        match a with
        | ⟨0, _⟩ => rfl), hm, select_one]

/-! ### The gather of table rows -/

section Gather
variable [Facts₀]

/-- The gather of whole table rows at a one-column matrix of start indices reads, at (r, col), the table at the row
    the index at (r, 0) names, read signed and clamped into 0..999, and column col. -/
theorem gather_apply (ce : S1000x128.Idx → α) (idx2 : IVec S1024000x1 32) (r : Fin 1024000) (col : Fin 128) :
    Host.gather gather_S1000x128_S1024000x1_S1024000x128_1_0_n_n_0_1_1128 ce idx2 (ix2 r col)
      = ce (ix2 (⟨min (idx2 (ix2 r (0 : Fin 1))).toInt.toNat 999, by omega⟩ : Fin 1000) col) := by
  unfold Host.gather
  congr 1
  funext a
  refine Fin.ext ?_
  let D := gather_S1000x128_S1024000x1_S1024000x128_1_0_n_n_0_1_1128
  match a with
  | ⟨0, _⟩ =>
    show D.start (ix2 r col) idx2 0 + D.batchCoord (ix2 r col) 0 + D.offCoord (ix2 r col) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix2 r col) ⟨List.idxOf (0 : Fin 2) D.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show D.start (ix2 r col) idx2 1 + D.batchCoord (ix2 r col) 1 + D.offCoord (ix2 r col) 1 = _
    rw [GatherDims.batchCoord_eq_zero _ _ _ List.not_mem_nil]
    unfold GatherDims.start
    rw [dif_neg (show (1 : Fin 2) ∉ D.startIndexMap from by
      intro h; exact absurd (List.mem_singleton.mp h) (by decide))]
    simp only [Nat.add_zero, Nat.zero_add]
    rfl

/-- With the index at (r, 0) the word of a class c, the gather reads row c of the table. -/
theorem gather_class_apply (ce : S1000x128.Idx → α) (idx2 : IVec S1024000x1 32) (r : Fin 1024000) (col : Fin 128)
    (c : Fin 1000) (hidx : idx2 (ix2 r (0 : Fin 1)) = BitVec.ofNat 32 c.val) :
    Host.gather gather_S1000x128_S1024000x1_S1024000x128_1_0_n_n_0_1_1128 ce idx2 (ix2 r col) = ce (ix2 c col) := by
  rw [gather_apply]
  congr 2
  refine Fin.ext ?_
  show min (idx2 (ix2 r (0 : Fin 1))).toInt.toNat 999 = c.val
  rw [hidx, toInt_ofNat_small c.val c.isLt]
  have := c.isLt
  omega

end Gather

end Cert.ReferenceIdeal.RefStages

end
-- ==== Proof.RefStagesC.lean ====
/-
  The reference program's last layout operations, each read at an index written by its coordinates: the two column
  halves of the gathered table (the means in columns 0..63, the log standard deviations in columns 64..127), the sum
  over the 64 features of a [1024000, 64] array at a flat row, and the final reshape of the flat vector to
  [1024, 1000], which reads at (b, c) the flat row 1000 b + c.
-/
import proofs.«153992_g45595372814773_cont_8to1_c_604_14_alg».proof.Proof.RefStagesA

noncomputable section

open scoped BigOperators

namespace Cert.ReferenceIdeal.RefStages

open Idealize.ShloMosaic Idealize.ShloMosaic.ValueIdx Cert.ReferenceIdeal

variable {α : Type}

/-! ### The column slices of the gathered table -/

/-- The left half of the gathered table: at (r, d) it reads the table at (r, lo d). -/
theorem sliceLo_apply (g : S1024000x128.Idx → α)
    (h : S1024000x128.Slices ![0, 0] S1024000x64) (r : Fin 1024000) (d : Fin 64) :
    extractStridedSlice S1024000x64 ![0, 0] g h (ix2 r d) = g (ix2 r (Cert.GaussLL.lo d)) :=
  slice2_axis1_apply 0 g h r d (Cert.GaussLL.lo d) (by show d.val = 0 + d.val; omega)

/-- The right half: at (r, d) it reads the table at (r, hi d). -/
theorem sliceHi_apply (g : S1024000x128.Idx → α)
    (h : S1024000x128.Slices ![0, 64] S1024000x64) (r : Fin 1024000) (d : Fin 64) :
    extractStridedSlice S1024000x64 ![0, 64] g h (ix2 r d) = g (ix2 r (Cert.GaussLL.hi d)) :=
  slice2_axis1_apply 64 g h r d (Cert.GaussLL.hi d) rfl

/-! ### The sum over the features -/

/-- The host's sum over axis 1 of a [1024000, 64] array, at r: the initial value plus the sum over k of the
    entries (r, k). -/
theorem rowSum_apply {u : Shape} (v : FVec Ideal S1024000x64 .f32) (init : u.Idx → Ideal .f32)
    (h' : S1024000x64.ReducesTo [1] S1024000) (hu : 0 < u.numel) (r : Fin 1024000) :
    Host.reduceAdd v init h' hu (ix1 r) = init (Shape.Idx.first hu) + ∑ k : Fin 64, v (ix2 r k) := by
  have hR : S1024000x64.Reduces [1] S1024000 := by decide
  rw [hostReduceAdd_apply, Ideal.hostReduceAdd_single h' hR]
  show init (Shape.Idx.first hu) + ∑ k : Fin 64, v (hR.lift (ix1 r) k) = _
  congr 1
  refine Finset.sum_congr rfl fun k _ => ?_
  exact congrArg v (funext fun ax => Fin.ext (by match ax with | ⟨0, _⟩ => rfl | ⟨1, _⟩ => rfl))

/-! ### The final reshape -/

/-- The flat vector reshaped to [1024, 1000] reads, at (b, c), the vector at row b c. -/
theorem unflatten_apply (v : S1024000.Idx → α) (h : S1024000.ShapeCasts S1024x1000) (b : Fin 1024) (c : Fin 1000) :
    shapeCast S1024x1000 v h (ix2 b c) = v (ix1 (row b c)) :=
  shapeCast_apply v h (ix2 b c) (ix1 (row b c)) (by
    rw [Shape.rowMajor_val_two, Shape.rowMajor_val_one]
    show 1000 * b.val + c.val = b.val * 1000 + c.val
    omega)

end Cert.ReferenceIdeal.RefStages

end
-- ==== Proof.RefRead.lean ====
/-
  The reference program's composed term read at an index: its entry (b, c) is the textbook class-conditional Gaussian
  log-likelihood of batch row b under class c.

  The term flattens the pair (b, c) into the row r = 1000 b + c. Read from the outside in: the final reshape reads
  the flat vector at r; the sum over the features there is the initial zero plus the sum over d of the per-feature
  term at (r, d); that term is built elementwise from the repeated batch array, which at (r, d) is x(b, d), and from
  the two halves of the looked-up table, which at row r is row c of the class table because the class index at r is
  the word of c, which is in range, so that the negative-index wrap, the clamp and the bounds mask all leave it alone.
-/
import proofs.«153992_g45595372814773_cont_8to1_c_604_14_alg».proof.Proof.RefRun
import proofs.«153992_g45595372814773_cont_8to1_c_604_14_alg».proof.Proof.RefStagesA
import proofs.«153992_g45595372814773_cont_8to1_c_604_14_alg».proof.Proof.RefStagesB
import proofs.«153992_g45595372814773_cont_8to1_c_604_14_alg».proof.Proof.RefStagesC
import proofs.«153992_g45595372814773_cont_8to1_c_604_14_alg».proof.Proof.Spec

noncomputable section

open scoped BigOperators

namespace Cert.ReferenceIdeal.RefValue

open Cert.ReferenceIdeal Cert.ReferenceIdeal.Gen Idealize.ShloMosaic

/-! ## The composed term read at an index -/

section Read

open Cert.ReferenceIdeal.RefStages Idealize.ShloMosaic.ValueIdx Cert.GaussLL

/-- The class index vector at the flat row of (b, c) is the word of c. -/
theorem classIdx_row (b : Fin 1024) (c : Fin 1000) : classIdx (ix1 (row b c)) = BitVec.ofNat 32 c.val := by
  unfold classIdx
  exact classIdx_apply _ _ _ b c

/-- The repeated batch array at (row of (b, c), d) is the batch entry (b, d). -/
theorem xRows_apply (x : FVec Ideal S1024x64 .f32) (b : Fin 1024) (c : Fin 1000) (d : Fin 64) :
    xRows (F := Ideal) x (ix2 (row b c) d) = x (ix2 b d) := by
  unfold xRows
  exact xRep_apply x _ _ _ _ b c d

/-- The word of a class is not negative: the wrap keeps it. -/
theorem wrapIdx_row (b : Fin 1024) (c : Fin 1000) : wrapIdx (ix1 (row b c)) = BitVec.ofNat 32 c.val := by
  unfold wrapIdx
  exact (whereIdx_apply classIdx _ _ (ix1 (row b c)) c.val c.isLt (classIdx_row b c)).trans (classIdx_row b c)

/-- The start index of the flat row of (b, c) is the word of c. -/
theorem startIdx_row (b : Fin 1024) (c : Fin 1000) :
    startIdx (ix2 (row b c) (0 : Fin 1)) = BitVec.ofNat 32 c.val := by
  unfold startIdx
  exact (bcastCol_apply wrapIdx _ (row b c)).trans (wrapIdx_row b c)

/-- Every flat row's index is in bounds. -/
theorem inBounds_row (b : Fin 1024) (c : Fin 1000) : inBounds (ix1 (row b c)) = 1#1 := by
  unfold inBounds
  exact mask_apply startIdx _ _ _ _ _ (row b c) c.val c.isLt (startIdx_row b c)

/-- The gathered array at the flat row of (b, c) is row c of the class table. -/
theorem gathered_apply (ce : FVec Ideal S1000x128 .f32) (b : Fin 1024) (c : Fin 1000) (col : Fin 128) :
    gathered (F := Ideal) ce (ix2 (row b c) col) = ce (ix2 c col) := by
  unfold gathered
  exact gather_class_apply ce startIdx (row b c) col c (startIdx_row b c)

/-- So is the table the lookup returns: the mask is 1 there. -/
theorem table_apply (ce : FVec Ideal S1000x128 .f32) (b : Fin 1024) (c : Fin 1000) (col : Fin 128) :
    table (F := Ideal) ce (ix2 (row b c) col) = ce (ix2 c col) := by
  unfold table
  exact (takeSelect_apply inBounds (gathered ce) _ _ (row b c) col (inBounds_row b c)).trans
    (gathered_apply ce b c col)

/-- The means at (row of (b, c), d): class c's mean at feature d. -/
theorem meanRows_apply (ce : FVec Ideal S1000x128 .f32) (b : Fin 1024) (c : Fin 1000) (d : Fin 64) :
    meanRows (F := Ideal) ce (ix2 (row b c) d) = mean ce c d := by
  unfold meanRows
  exact (sliceLo_apply (table ce) _ (row b c) d).trans (table_apply ce b c (lo d))

/-- The log standard deviations at (row of (b, c), d): class c's at feature d. -/
theorem lsRows_apply (ce : FVec Ideal S1000x128 .f32) (b : Fin 1024) (c : Fin 1000) (d : Fin 64) :
    lsRows (F := Ideal) ce (ix2 (row b c) d) = lsig ce c d := by
  unfold lsRows
  exact (sliceHi_apply (table ce) _ (row b c) d).trans (table_apply ce b c (hi d))

/-- A broadcast scalar word reads, everywhere, the extended real the word denotes. -/
theorem splat_apply (w : BitVec 32) (j : S1024000x64.Idx) : splat (F := Ideal) w j = Ideal.ofBits .f32 w := rfl

/-- The host's exponential at an index is the extended reals' exponential of the element. -/
theorem hostExp_apply {s : Shape} (v : FVec Ideal s .f32) (j : s.Idx) : Host.exp v j = Ideal.exp (v j) := rfl

set_option maxHeartbeats 400000 in
/-- The per-feature term at (row of (b, c), d) is the textbook summand. -/
theorem termRows_apply (x : FVec Ideal S1024x64 .f32) (ce : FVec Ideal S1000x128 .f32)
    (b : Fin 1024) (c : Fin 1000) (d : Fin 64) :
    termRows (F := Ideal) x ce (ix2 (row b c) d)
      = cNegHalf * ((cL + cTwo * lsig ce c d)
          + ((x (ix2 b d) - mean ce c d) * (x (ix2 b d) - mean ce c d)) * ivar ce c d) := by
  unfold termRows diffRows
  rw [mulf_apply, addf_apply, addf_apply, mulf_apply, mulf_apply, mulf_apply, subf_apply, hostExp_apply, mulf_apply]
  rw [splat_apply, splat_apply, splat_apply, splat_apply, lsRows_apply, meanRows_apply, xRows_apply]
  unfold Cert.GaussLL.ivar
  with_reducible rfl

set_option maxHeartbeats 400000 in
/-- THE READ: the program's result at (b, c) is the textbook log-likelihood of batch row b under class c. -/
theorem refTerm_apply (x : FVec Ideal S1024x64 .f32) (ce : FVec Ideal S1000x128 .f32) (b : Fin 1024) (c : Fin 1000) :
    refTerm (F := Ideal) x ce (Idealize.ShloMosaic.ValueIdx.ix2 b c) = Cert.GaussLL.llRef x ce b c := by
  unfold refTerm
  refine (unflatten_apply _ _ b c).trans ?_
  refine (rowSum_apply (termRows (F := Ideal) x ce) _ _ _ (row b c)).trans ?_
  unfold Cert.GaussLL.llRef
  exact congrArg₂ (· + ·) rfl (Finset.sum_congr rfl fun d _ => termRows_apply x ce b c d)

end Read

end Cert.ReferenceIdeal.RefValue

end
-- ==== Proof.lean ====
/- The proof of Cert.Claim: a class-conditional Gaussian log-likelihood kernel against its textbook reference, over the
   extended reals.

   Both programs compute, for a batch x : [1024, 64] and a class table ce : [1000, 128] (means in columns 0..63, log
   standard deviations in columns 64..127), the array ll[b, c] = −1/2 · ∑_d ( log 2π + 2·ls[c,d] + (x[b,d] − m[c,d])² · exp(−2·ls[c,d]) ).
   The reference gathers every class row for every batch row and sums the 64 terms as written (RefRun, RefRead: its
   run and its result read at an index, Spec.llRef). The kernel expands the square: two contractions over the features
   against per-class tables built once at the first grid point and kept in scratch, plus the row's squared norm and a
   per-class constant (KernelPieces: what each case of the body leaves; KernelPayload: the block read at an index;
   KernelValue: the tables persist across the two grid points and the two row blocks cover the result, Spec.llKer).
   The two forms agree on finite inputs (Algebra: the expanded square, and the kernel's word for 64 · log 2π being 64
   times the reference's word for log 2π; Finite: the precondition makes every entry a real number). The kernel's
   idealization rewrote nothing, so the preservation claim is trivial; the three frames are the generated frames and
   the reference's run with its result dropped. -/
import proofs.«153992_g45595372814773_cont_8to1_c_604_14_alg».proof.Defs
import proofs.«153992_g45595372814773_cont_8to1_c_604_14_alg».proof.Proof.Gen.Kernel
import proofs.«153992_g45595372814773_cont_8to1_c_604_14_alg».proof.Proof.Gen.Kernel.Skeleton
import proofs.«153992_g45595372814773_cont_8to1_c_604_14_alg».proof.Proof.Gen.Kernel.Launch
import proofs.«153992_g45595372814773_cont_8to1_c_604_14_alg».proof.Proof.Gen.Kernel.Points
import proofs.«153992_g45595372814773_cont_8to1_c_604_14_alg».proof.Proof.Gen.Kernel.Frame
import proofs.«153992_g45595372814773_cont_8to1_c_604_14_alg».proof.Proof.Gen.KernelIdeal
import proofs.«153992_g45595372814773_cont_8to1_c_604_14_alg».proof.Proof.Gen.KernelIdeal.Skeleton
import proofs.«153992_g45595372814773_cont_8to1_c_604_14_alg».proof.Proof.Gen.KernelIdeal.Launch
import proofs.«153992_g45595372814773_cont_8to1_c_604_14_alg».proof.Proof.Gen.KernelIdeal.Points
import proofs.«153992_g45595372814773_cont_8to1_c_604_14_alg».proof.Proof.Gen.KernelIdeal.Frame
import proofs.«153992_g45595372814773_cont_8to1_c_604_14_alg».proof.Proof.Gen.KernelIdeal.Value
import proofs.«153992_g45595372814773_cont_8to1_c_604_14_alg».proof.Proof.Gen.ReferenceIdeal
import proofs.«153992_g45595372814773_cont_8to1_c_604_14_alg».proof.Proof.Gen.Pre_finite_inputs
import proofs.«153992_g45595372814773_cont_8to1_c_604_14_alg».proof.Proof.Spec
import proofs.«153992_g45595372814773_cont_8to1_c_604_14_alg».proof.Proof.Algebra
import proofs.«153992_g45595372814773_cont_8to1_c_604_14_alg».proof.Proof.Finite
import proofs.«153992_g45595372814773_cont_8to1_c_604_14_alg».proof.Proof.KernelValue
import proofs.«153992_g45595372814773_cont_8to1_c_604_14_alg».proof.Proof.RefRun
import proofs.«153992_g45595372814773_cont_8to1_c_604_14_alg».proof.Proof.RefRead
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- From arguments that agree, the kernel's result array ends at the expanded form and the reference's at the textbook
    form of the same arguments; every entry of the arguments is a real number by the precondition, and there the two
    forms are equal. -/
theorem algebraic : Cert.algebraic_KernelIdeal_ReferenceIdeal := by
  intro m ρ m' ρ' hpre hagree
  refine ⟨fun c => Cert.KernelIdeal.KValue.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2]
  obtain ⟨hx, hce⟩ := Cert.GaussLL.real_of_pre _ _ (hpre c)
  funext i
  obtain ⟨b, q, rfl⟩ : ∃ (b : Fin 1024) (q : Fin 1000), i = ix2 b q := ⟨i 0, i 1, eq_ix2 i⟩
  rw [Cert.ReferenceIdeal.RefValue.refTerm_apply]
  exact (Cert.GaussLL.llKer_eq_llRef _ _ hx hce b q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
